-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x3200000 : Shape := ⟨2, ![2, 3200000]⟩
abbrev S4096 : Shape := ⟨1, ![4096]⟩
abbrev S10x64 : Shape := ⟨2, ![10, 64]⟩
abbrev S64x64 : Shape := ⟨2, ![64, 64]⟩
abbrev S64 : Shape := ⟨1, ![64]⟩
abbrev S1x64 : Shape := ⟨2, ![1, 64]⟩
abbrev S128x64 : Shape := ⟨2, ![128, 64]⟩
abbrev S64x15 : Shape := ⟨2, ![64, 15]⟩
abbrev S15 : Shape := ⟨1, ![15]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S10x64 : S_.BroadcastsInDim S10x64 (![] : Fin 0 → Fin S10x64.rank)
  reducesTo_S10x64_S_d0_1 : S10x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S128x64 : S_.BroadcastsInDim S128x64 (![] : Fin 0 → Fin S128x64.rank)
  reducesTo_S128x64_S_d0_1 : S128x64.ReducesTo [0, 1] S_
  bcast_S_S64x15 : S_.BroadcastsInDim S64x15 (![] : Fin 0 → Fin S64x15.rank)
  reducesTo_S64x15_S_d0_1 : S64x15.ReducesTo [0, 1] S_
  bcast_S_S15 : S_.BroadcastsInDim S15 (![] : Fin 0 → Fin S15.rank)
  reducesTo_S15_S_d0 : S15.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S64 .f32) (main_arg15 : FVec F S64x15 .f32) (main_arg16 : FVec F S15 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x15 .f32 := Host.absf main_arg15
  let main_cst_22 : FVec F S_ .f32 := constant S_ .f32 0x7F800000#32
  let main_v60 : FVec F S64x15 .f32 := broadcastInDim S64x15 ![] bcast_S_S64x15 main_cst_22
  let main_v61 : IVec S64x15 1 := cmpf .olt main_v59 main_v60
  let main_c_23 : IVec S_ 1 := constantI S_ 1 1#1
  let main_v62 : IVec S_ 1 := (fun x v => Host.reduce IntOp.andi x v reducesTo_S64x15_S_d0_1 h_S_) main_v61 main_c_23
  let main_v63 : IVec S_ 1 := andi main_v58 main_v62
  let main_v64 : FVec F S15 .f32 := Host.absf main_arg16
  let main_cst_24 : FVec F S_ .f32 := constant S_ .f32 0x7F800000#32
  let main_v65 : FVec F S15 .f32 := broadcastInDim S15 ![] bcast_S_S15 main_cst_24
  let main_v66 : IVec S15 1 := cmpf .olt main_v64 main_v65
  let main_c_25 : IVec S_ 1 := constantI S_ 1 1#1
  let main_v67 : IVec S_ 1 := (fun x v => Host.reduce IntOp.andi x v reducesTo_S15_S_d0 h_S_) main_v66 main_c_25
  fn_part4 (F := F) main_v63 main_v67

def fn_part2 {F : FTy → Type} [FloatOps F] (main_arg10 : FVec F S64 .f32) (main_arg11 : FVec F S1x64 .f32) (main_arg12 : FVec F S64 .f32) (main_arg13 : FVec F S128x64 .f32) (main_arg14 : FVec F S64 .f32) (main_arg15 : FVec F S64x15 .f32) (main_arg16 : FVec F S15 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg11
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg13
  let main_cst_18 : FVec F S_ .f32 := constant S_ .f32 0x7F800000#32
  let main_v50 : FVec F S128x64 .f32 := broadcastInDim S128x64 ![] bcast_S_S128x64 main_cst_18
  fn_part3 (F := F) main_arg14 main_arg15 main_arg16 main_v48 main_v49 main_v50

def fn_part1 {F : FTy → Type} [FloatOps F] (main_arg7 : FVec F S64x64 .f32) (main_arg8 : FVec F S64 .f32) (main_arg9 : FVec F S64x64 .f32) (main_arg10 : FVec F S64 .f32) (main_arg11 : FVec F S1x64 .f32) (main_arg12 : FVec F S64 .f32) (main_arg13 : FVec F S128x64 .f32) (main_arg14 : FVec F S64 .f32) (main_arg15 : FVec F S64x15 .f32) (main_arg16 : FVec F S15 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : IVec S100000 32) (main_arg1 : IVec S2x3200000 32) (main_arg2 : IVec S100000 32) (main_arg3 : FVec F S4096 .f32) (main_arg4 : FVec F S10x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S1x64 .f32) (main_arg12 : FVec F S64 .f32) (main_arg13 : FVec F S128x64 .f32) (main_arg14 : FVec F S64 .f32) (main_arg15 : FVec F S64x15 .f32) (main_arg16 : FVec F S15 .f32) : IVec S_ 1 :=
  let main_v0 : FVec F S4096 .f32 := Host.absf main_arg3
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S10x64 .f32 := Host.absf main_arg4
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000 : Shape := ⟨1, ![100000]⟩
abbrev S2x3200000 : Shape := ⟨2, ![2, 3200000]⟩
abbrev S4096 : Shape := ⟨1, ![4096]⟩
abbrev S10x64 : Shape := ⟨2, ![10, 64]⟩
abbrev S64x64 : Shape := ⟨2, ![64, 64]⟩
abbrev S64 : Shape := ⟨1, ![64]⟩
abbrev S1x64 : Shape := ⟨2, ![1, 64]⟩
abbrev S128x64 : Shape := ⟨2, ![128, 64]⟩
abbrev S64x15 : Shape := ⟨2, ![64, 15]⟩
abbrev S15 : Shape := ⟨1, ![15]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S5000x64 : Shape := ⟨2, ![5000, 64]⟩
abbrev S3200000x64 : Shape := ⟨2, ![3200000, 64]⟩
abbrev S5000x1 : Shape := ⟨2, ![5000, 1]⟩
abbrev S4096x64 : Shape := ⟨2, ![4096, 64]⟩
abbrev S4096x1 : Shape := ⟨2, ![4096, 1]⟩
abbrev S1x15 : Shape := ⟨2, ![1, 15]⟩
abbrev S4096x15 : Shape := ⟨2, ![4096, 15]⟩
abbrev S1024x64 : Shape := ⟨2, ![1024, 64]⟩
abbrev S1024x1 : Shape := ⟨2, ![1024, 1]⟩
abbrev S1024x15 : Shape := ⟨2, ![1024, 15]⟩
abbrev S1024x128 : Shape := ⟨2, ![1024, 128]⟩

abbrev nBuf : Space → Nat
  | .hbm => 141
  | .vmem => 54
  | .smem => 0
  | _ => 0

abbrev hbmTy0_0 (i : Nat) : BufTy := match i % 128 with
  | 0 => ⟨S100000, .i32⟩
  | 1 => ⟨S2x3200000, .i32⟩
  | 2 => ⟨S100000, .i32⟩
  | 3 => ⟨S4096, .f32⟩
  | 4 => ⟨S10x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S1x64, .f32⟩
  | 12 => ⟨S64, .f32⟩
  | 13 => ⟨S128x64, .f32⟩
  | 14 => ⟨S64, .f32⟩
  | 15 => ⟨S64x15, .f32⟩
  | 16 => ⟨S15, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x64, .f32⟩
  | 60 => ⟨S100000x64, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x64, .f32⟩
  | 70 => ⟨S3200000x1, .f32⟩
  | 71 => ⟨S3200000x64, .f32⟩
  | 72 => ⟨S3200000x64, .f32⟩
  | 73 => ⟨S_, .f32⟩
  | 74 => ⟨S100000x64, .f32⟩
  | 75 => ⟨S3200000x1, .i32⟩
  | 76 => ⟨S100000x64, .f32⟩
  | 77 => ⟨S100000x1, .f32⟩
  | 78 => ⟨S1x64, .f32⟩
  | 79 => ⟨S100000x64, .f32⟩
  | 80 => ⟨S100000x64, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x64, .f32⟩
  | 90 => ⟨S3200000x1, .f32⟩
  | 91 => ⟨S3200000x64, .f32⟩
  | 92 => ⟨S3200000x64, .f32⟩
  | 93 => ⟨S_, .f32⟩
  | 94 => ⟨S100000x64, .f32⟩
  | 95 => ⟨S3200000x1, .i32⟩
  | 96 => ⟨S100000x64, .f32⟩
  | 97 => ⟨S100000x1, .f32⟩
  | 98 => ⟨S1x64, .f32⟩
  | 99 => ⟨S100000x64, .f32⟩
  | 100 => ⟨S100000x64, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x64, .f32⟩
  | 110 => ⟨S3200000x1, .f32⟩
  | 111 => ⟨S3200000x64, .f32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000x1, .f32⟩
  | 118 => ⟨S1x64, .f32⟩
  | 119 => ⟨S100000x64, .f32⟩
  | 120 => ⟨S_, .f32⟩
  | 121 => ⟨S4096x64, .f32⟩
  | 122 => ⟨S100000x1, .i32⟩
  | 123 => ⟨S4096x64, .f32⟩
  | 124 => ⟨S_, .f32⟩
  | 125 => ⟨S100000, .f32⟩
  | 126 => ⟨S_, .f32⟩
  | 127 => ⟨S4096, .f32⟩
  | _ => ⟨S100000, .i32⟩

abbrev hbmTy0_1 (i : Nat) : BufTy := match i % 128 with
  | 0 => ⟨S100000x1, .i32⟩
  | 1 => ⟨S4096, .f32⟩
  | 2 => ⟨S_, .f32⟩
  | 3 => ⟨S4096, .f32⟩
  | 4 => ⟨S4096, .f32⟩
  | 5 => ⟨S4096x1, .f32⟩
  | 6 => ⟨S4096x64, .f32⟩
  | 7 => ⟨S4096x64, .f32⟩
  | 8 => ⟨S4096x1, .f32⟩
  | 9 => ⟨S1x64, .f32⟩
  | 10 => ⟨S1x64, .f32⟩
  | 11 => ⟨S1x15, .f32⟩
  | 12 => ⟨S4096x15, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1024x64, .f32⟩
  | .local _ .vmem, ⟨43, _⟩ => ⟨S1024x64, .f32⟩
  | .local _ .vmem, ⟨44, _⟩ => ⟨S1024x1, .f32⟩
  | .local _ .vmem, ⟨45, _⟩ => ⟨S1024x1, .f32⟩
  | .local _ .vmem, ⟨46, _⟩ => ⟨S1x64, .f32⟩
  | .local _ .vmem, ⟨47, _⟩ => ⟨S1x64, .f32⟩
  | .local _ .vmem, ⟨48, _⟩ => ⟨S128x64, .f32⟩
  | .local _ .vmem, ⟨49, _⟩ => ⟨S1x64, .f32⟩
  | .local _ .vmem, ⟨50, _⟩ => ⟨S64x15, .f32⟩
  | .local _ .vmem, ⟨51, _⟩ => ⟨S1x15, .f32⟩
  | .local _ .vmem, ⟨52, _⟩ => ⟨S1024x15, .f32⟩
  | .local _ .vmem, ⟨53, _⟩ => ⟨S1024x15, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg7_0 : Ref sig .tc := ⟨.vmem, 51, rfl⟩
abbrev cc6_stg8_0 : Ref sig .tc := ⟨.vmem, 52, rfl⟩
abbrev cc6_stg8_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem7_0 : DmaSem sig := 51
abbrev cc6_sem8_0 : DmaSem sig := 52
abbrev cc6_sem8_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x15 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x15 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1024x15 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  bcast_S_S4096x64 : S_.BroadcastsInDim S4096x64 (![] : Fin 0 → Fin S4096x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S4096_S4096x1 : S4096.ShapeCasts S4096x1
  shapeCasts_S15_S1x15 : S15.ShapeCasts S1x15
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  broadcasts_S1x64_S1024x64 : S1x64.Broadcasts S1024x64
  concatenates_S1024x64_S1024x64_S1024x128_d1 : Shape.Concatenates [S1024x64, S1024x64] S1024x128 1
  inb_S128x64_S128x64_0_0 : ∀ a, (![0, 0] : Fin 2 → Nat) a + S128x64.size a ≤ S128x64.size a
  h_S128x64 : 0 < S128x64.numel
  inb_S64x15_S64x15_0_0 : ∀ a, (![0, 0] : Fin 2 → Nat) a + S64x15.size a ≤ S64x15.size a
  h_S64x15 : 0 < S64x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S1024x15 : S1x15.Broadcasts S1024x15
  inb_S1024x15_S1024x15_0_0 : ∀ a, (![0, 0] : Fin 2 → Nat) a + S1024x15.size a ≤ S1024x15.size a
  h_S1024x15 : 0 < S1024x15.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S10x64_S100000x1_S100000x64_1_0_n_n_0_1_164_wf : GatherDims.WF S10x64 S100000x1 S100000x64 [1] [0] [] [0] [] 1 ![1, 64]
  dot_S5000x64_S64x64_S5000x64_1_0_0_1_n_n_wf : DotDims.WF S5000x64 S64x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S4096x64_S100000x1_S100000x64_1_0_0_1_wf : ScatterDims.WF S4096x64 S100000x1 S100000x64 [1] [0] [0] 1
  scatter_S4096_S100000x1_S100000_n_0_0_1_wf : ScatterDims.WF S4096 S100000x1 S100000 [] [0] [0] 1
  dot_S1024x128_S128x64_S1024x64_1_0_0_1_n_n_wf : DotDims.WF S1024x128 S128x64 S1024x64 [1] [0] [0] [1] [] []
  dot_S1024x64_S64x15_S1024x15_1_0_0_1_n_n_wf : DotDims.WF S1024x64 S64x15 S1024x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S4096x64.size a
  hwx6_0 : ∀ i : grid6.Coords, EltTy.bits .f32 = 32 ∨ (Rect.block (s := S4096x64) S1024x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x1.size a ≤ S4096x1.size a
  hwx6_1 : ∀ i : grid6.Coords, EltTy.bits .f32 = 32 ∨ (Rect.block (s := S4096x1) S1024x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x15.size a ≤ S64x15.size a
  hwx6_6 : ∀ i : grid6.Coords, EltTy.bits .f32 = 32 ∨ (Rect.block (s := S64x15) S64x15.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x15.size a ≤ S1x15.size a
  hwx6_7 : ∀ i : grid6.Coords, EltTy.bits .f32 = 32 ∨ (Rect.block (s := S1x15) S1x15.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x15.size a ≤ S4096x15.size a
  hwx6_8 : ∀ i : grid6.Coords, EltTy.bits .f32 = 32 ∨ (Rect.block (s := S4096x15) S1024x15.size (cc6_transform_8 i) (hinb6_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S10x64_S100000x1_S100000x64_1_0_n_n_0_1_164 : GatherDims S10x64 S100000x1 S100000x64 where
  offsetDims := [1]
  collapsedSliceDims := [0]
  operandBatchingDims := []
  startIndicesBatchingDims := []
  startIndexMap := [0]
  indexVectorDim := 1
  sliceSizes := ![1, 64]
  wf := gather_S10x64_S100000x1_S100000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x15_S1024x15_1_0_0_1_n_n : DotDims S1024x64 S64x15 S1024x15 where
  lhsContracting := [1]
  rhsContracting := [0]
  lhsNonContracting := [0]
  rhsNonContracting := [1]
  lhsBatch := []
  rhsBatch := []
  wf := dot_S1024x64_S64x15_S1024x15_1_0_0_1_n_n_wf

abbrev win0_0 : Pipeline.Window sig grid0 :=
  Pipeline.Window.ofSpec (Memref.whole main_v33) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v67) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v96) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S1024x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v98) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg13) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v99) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg15) S64x15.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v100) S1x15.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v101) S1024x15.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S100000 : Shape := ⟨1, ![100000]⟩
abbrev S2x3200000 : Shape := ⟨2, ![2, 3200000]⟩
abbrev S4096 : Shape := ⟨1, ![4096]⟩
abbrev S10x64 : Shape := ⟨2, ![10, 64]⟩
abbrev S64x64 : Shape := ⟨2, ![64, 64]⟩
abbrev S64 : Shape := ⟨1, ![64]⟩
abbrev S1x64 : Shape := ⟨2, ![1, 64]⟩
abbrev S128x64 : Shape := ⟨2, ![128, 64]⟩
abbrev S64x15 : Shape := ⟨2, ![64, 15]⟩
abbrev S15 : Shape := ⟨1, ![15]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S4096x64 : Shape := ⟨2, ![4096, 64]⟩
abbrev S4096x1 : Shape := ⟨2, ![4096, 1]⟩
abbrev S4096x128 : Shape := ⟨2, ![4096, 128]⟩
abbrev S4096x15 : Shape := ⟨2, ![4096, 15]⟩
abbrev S1x15 : Shape := ⟨2, ![1, 15]⟩

abbrev nBuf : Space → Nat
  | .hbm => 174
  | .vmem => 0
  | .smem => 0
  | _ => 0

abbrev hbmTy0_0 (i : Nat) : BufTy := match i % 128 with
  | 0 => ⟨S100000, .i32⟩
  | 1 => ⟨S2x3200000, .i32⟩
  | 2 => ⟨S100000, .i32⟩
  | 3 => ⟨S4096, .f32⟩
  | 4 => ⟨S10x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S1x64, .f32⟩
  | 12 => ⟨S64, .f32⟩
  | 13 => ⟨S128x64, .f32⟩
  | 14 => ⟨S64, .f32⟩
  | 15 => ⟨S64x15, .f32⟩
  | 16 => ⟨S15, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x64, .f32⟩
  | 60 => ⟨S100000x64, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x64, .f32⟩
  | 70 => ⟨S3200000x1, .f32⟩
  | 71 => ⟨S3200000x64, .f32⟩
  | 72 => ⟨S3200000x64, .f32⟩
  | 73 => ⟨S_, .f32⟩
  | 74 => ⟨S100000x64, .f32⟩
  | 75 => ⟨S3200000x1, .i32⟩
  | 76 => ⟨S100000x64, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x64, .f32⟩
  | 97 => ⟨S3200000x1, .f32⟩
  | 98 => ⟨S3200000x64, .f32⟩
  | 99 => ⟨S3200000x64, .f32⟩
  | 100 => ⟨S_, .f32⟩
  | 101 => ⟨S100000x64, .f32⟩
  | 102 => ⟨S3200000x1, .i32⟩
  | 103 => ⟨S100000x64, .f32⟩
  | 104 => ⟨S100000x1, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x64, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x64, .f32⟩
  | 124 => ⟨S3200000x1, .f32⟩
  | 125 => ⟨S3200000x64, .f32⟩
  | 126 => ⟨S3200000x64, .f32⟩
  | 127 => ⟨S_, .f32⟩
  | _ => ⟨S100000, .i32⟩

abbrev hbmTy0_1 (i : Nat) : BufTy := match i % 128 with
  | 0 => ⟨S100000x64, .f32⟩
  | 1 => ⟨S3200000x1, .i32⟩
  | 2 => ⟨S100000x64, .f32⟩
  | 3 => ⟨S100000x1, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S4096x64, .f32⟩
  | 15 => ⟨S100000x1, .i32⟩
  | 16 => ⟨S4096x64, .f32⟩
  | 17 => ⟨S_, .f32⟩
  | 18 => ⟨S100000, .f32⟩
  | 19 => ⟨S_, .f32⟩
  | 20 => ⟨S4096, .f32⟩
  | 21 => ⟨S100000x1, .i32⟩
  | 22 => ⟨S4096, .f32⟩
  | 23 => ⟨S_, .f32⟩
  | 24 => ⟨S4096, .f32⟩
  | 25 => ⟨S4096, .f32⟩
  | 26 => ⟨S4096x1, .f32⟩
  | 27 => ⟨S4096x64, .f32⟩
  | 28 => ⟨S4096x64, .f32⟩
  | 29 => ⟨S4096x1, .f32⟩
  | 30 => ⟨S4096x64, .f32⟩
  | 31 => ⟨S1x64, .f32⟩
  | 32 => ⟨S4096x64, .f32⟩
  | 33 => ⟨S4096x64, .f32⟩
  | 34 => ⟨S4096x128, .f32⟩
  | 35 => ⟨S4096x64, .f32⟩
  | 36 => ⟨S1x64, .f32⟩
  | 37 => ⟨S4096x64, .f32⟩
  | 38 => ⟨S4096x64, .f32⟩
  | 39 => ⟨S_, .f32⟩
  | 40 => ⟨S4096x64, .f32⟩
  | 41 => ⟨S4096x64, .f32⟩
  | 42 => ⟨S4096x15, .f32⟩
  | 43 => ⟨S1x15, .f32⟩
  | 44 => ⟨S4096x15, .f32⟩
  | 45 => ⟨S4096x15, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call1_cst : Ref sig .tc := ⟨.hbm, 111, rfl⟩
abbrev main_call1_v0 : Ref sig .tc := ⟨.hbm, 112, rfl⟩
abbrev main_v77 : Ref sig .tc := ⟨.hbm, 113, rfl⟩
abbrev main_v78 : Ref sig .tc := ⟨.hbm, 114, rfl⟩
abbrev main_c_13 : Ref sig .tc := ⟨.hbm, 115, rfl⟩
abbrev main_v79 : Ref sig .tc := ⟨.hbm, 116, rfl⟩
abbrev main_v80 : Ref sig .tc := ⟨.hbm, 117, rfl⟩
abbrev main_c_14 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_15 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call2_cst : Ref sig .tc := ⟨.hbm, 138, rfl⟩
abbrev main_call2_v0 : Ref sig .tc := ⟨.hbm, 139, rfl⟩
abbrev main_v99 : Ref sig .tc := ⟨.hbm, 140, rfl⟩
abbrev main_cst_16 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_17 : Ref sig .tc := ⟨.hbm, 145, rfl⟩
abbrev main_v103 : Ref sig .tc := ⟨.hbm, 146, rfl⟩
abbrev main_cst_18 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_19 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_call3_cst : Ref sig .tc := ⟨.hbm, 167, rfl⟩
abbrev main_call3_v0 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S4096x64 : S_.BroadcastsInDim S4096x64 (![] : Fin 0 → Fin S4096x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  concatenates_S4096x64_S4096x64_S4096x128_d1 : Shape.Concatenates [S4096x64, S4096x64] S4096x128 1
  bcast_S15_S1x15_1 : S15.BroadcastsInDim S1x15 (![1] : Fin 1 → Fin S1x15.rank)
  bcast_S1x15_S4096x15_0_1 : S1x15.BroadcastsInDim S4096x15 (![0, 1] : Fin 2 → Fin S4096x15.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S10x64_S100000x1_S100000x64_1_0_n_n_0_1_164_wf : GatherDims.WF S10x64 S100000x1 S100000x64 [1] [0] [] [0] [] 1 ![1, 64]
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S4096x64_S100000x1_S100000x64_1_0_0_1_wf : ScatterDims.WF S4096x64 S100000x1 S100000x64 [1] [0] [0] 1
  scatter_S4096_S100000x1_S100000_n_0_0_1_wf : ScatterDims.WF S4096 S100000x1 S100000 [] [0] [0] 1
  dot_S4096x1_S1x64_S4096x64_1_0_0_1_n_n_wf : DotDims.WF S4096x1 S1x64 S4096x64 [1] [0] [0] [1] [] []
  dot_S4096x128_S128x64_S4096x64_1_0_0_1_n_n_wf : DotDims.WF S4096x128 S128x64 S4096x64 [1] [0] [0] [1] [] []
  dot_S4096x64_S64x15_S4096x15_1_0_0_1_n_n_wf : DotDims.WF S4096x64 S64x15 S4096x15 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S10x64_S100000x1_S100000x64_1_0_n_n_0_1_164 : GatherDims S10x64 S100000x1 S100000x64 where
  offsetDims := [1]
  collapsedSliceDims := [0]
  operandBatchingDims := []
  startIndicesBatchingDims := []
  startIndexMap := [0]
  indexVectorDim := 1
  sliceSizes := ![1, 64]
  wf := gather_S10x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x1_S1x64_S4096x64_1_0_0_1_n_n : DotDims S4096x1 S1x64 S4096x64 where
  lhsContracting := [1]
  rhsContracting := [0]
  lhsNonContracting := [0]
  rhsNonContracting := [1]
  lhsBatch := []
  rhsBatch := []
  wf := dot_S4096x1_S1x64_S4096x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x15_S4096x15_1_0_0_1_n_n : DotDims S4096x64 S64x15 S4096x15 where
  lhsContracting := [1]
  rhsContracting := [0]
  lhsNonContracting := [0]
  rhsNonContracting := [1]
  lhsBatch := []
  rhsBatch := []
  wf := dot_S4096x64_S64x15_S4096x15_1_0_0_1_n_n_wf

class Facts : Prop extends Facts₀ where

variable [Facts]
-- ==== Proof.KRun.lean ====
/-
  The idealized kernel's run with its result named.  @main is twelve segments: five stretches of host
  operations and seven pipelined regions.  The segment-by-segment run leaves every unscoped buffer of a
  core at the last boundary's contents, the fold `W12` of the launch memory through the segments; read
  at the result buffer this names the program's result, and read at each argument it is the launch
  contents again.
-/
import proofs.«103716_j41532333752537_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the
    last boundary's contents and every argument array as launched. -/
theorem run_result : θ_run defs (onTc (τ := τ) (main (F := F))) ⟨m, fun _ => 0, ρ⟩ (fun r => ∀ c : Dev nD,
      r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.KRun

end
-- ==== Proof.Chain0.lean ====
/-
  The idealized kernel's host operations before its first region compute, from the argument arrays, exactly the
  reference's first stages: the two rows of the edge list, the per-edge normalisation, the inverse degrees and the
  embedded node features.  The operations are the same jnp code in both programs, so each buffer holds the
  reference's stage of the same arguments.
-/
import proofs.«103716_j41532333752537_1_alg».proof.Proof.Gen.KernelIdeal.Frame
import proofs.«103716_j41532333752537_1_alg».proof.Proof.Gen.ReferenceIdeal.Read
import Idealize.ShloMosaic.Lib.StableHlo.Run
set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-- The launch contents of an argument. -/
theorem w0_arg (b : Ref sig .tc) : W0 m ρ c (Proc.devRef .tc b) = m ((c : Thread nD τ).loc b) := rfl

theorem w1_v33 : W1 m ρ c (Proc.devRef .tc main_v33) = Cert.ReferenceIdeal.Read.val_main_v33 (F := Ideal) a0 a4 := by
  show StableHlo.after hostOps0 (W0 m ρ c) (Proc.devRef .tc main_v33) = _
  after_results_simp <;> rfl

theorem w1_v1 : W1 m ρ c (Proc.devRef .tc main_v1) = Cert.ReferenceIdeal.Read.val_main_v1 (F := Ideal) a1 := by
  show StableHlo.after hostOps0 (W0 m ρ c) (Proc.devRef .tc main_v1) = _
  after_results_simp <;> rfl

theorem w1_v3 : W1 m ρ c (Proc.devRef .tc main_v3) = Cert.ReferenceIdeal.Read.val_main_v3 (F := Ideal) a1 := by
  show StableHlo.after hostOps0 (W0 m ρ c) (Proc.devRef .tc main_v3) = _
  after_results_simp <;> rfl

theorem w1_v25 : W1 m ρ c (Proc.devRef .tc main_v25) = Cert.ReferenceIdeal.Read.val_main_v25 (F := Ideal) a1 := by
  show StableHlo.after hostOps0 (W0 m ρ c) (Proc.devRef .tc main_v25) = _
  after_results_simp <;> rfl

theorem w1_v26 : W1 m ρ c (Proc.devRef .tc main_v26) = Cert.ReferenceIdeal.Read.val_main_v26 (F := Ideal) a1 := by
  show StableHlo.after hostOps0 (W0 m ρ c) (Proc.devRef .tc main_v26) = _
  after_results_simp <;> rfl

theorem w1_arg5 : W1 m ρ c (Proc.devRef .tc main_arg5) = W0 m ρ c (Proc.devRef .tc main_arg5) :=
  by show StableHlo.after hostOps0 (W0 m ρ c) (Proc.devRef .tc main_arg5) = _; after_results

end Cert.KernelIdeal.Chain

end
-- ==== Proof.Spec.lean ====
/-
  The mathematics both programs compute, over the extended reals, as whole-array functions of literal shapes.

  * `rowsTimes A B` — the product of a 100000×64 array with a 64×64 array: entry (r, q) is the sum over k of
    A(r, k) · B(k, q).
  * `combine agg hw d b` — one graph-convolution layer's pointwise tail: entry (r, q) is
    max(agg(r, q) + hw(r, q) · d(r) + b(q), 0), the scale `d` a column and the bias `b` a row.
-/
import Idealize.ShloMosaic.PureOps.Ideal
import Idealize.ShloMosaic.PureOps.Ideal.Laws
import Idealize.ShloMosaic.Lib.ValueIdx

noncomputable section

namespace Cert.Spec

open Idealize.ShloMosaic

abbrev SN : Shape := ⟨2, ![100000, 64]⟩
abbrev SW : Shape := ⟨2, ![64, 64]⟩
abbrev SCol : Shape := ⟨2, ![100000, 1]⟩
abbrev SRow : Shape := ⟨2, ![1, 64]⟩

/-- The index (r, k) of the left factor that entry `i = (r, q)` of a product reads at contraction step `k`. -/
abbrev lIdx (i : SN.Idx) (k : Fin 64) : SN.Idx := fun a => match a with
  | ⟨0, _⟩ => ⟨(i 0).val, (i 0).isLt⟩
  | ⟨1, _⟩ => ⟨k.val, k.isLt⟩
/-- The index (k, q) of the right factor that entry `i = (r, q)` of a product reads at contraction step `k`. -/
abbrev rIdx (i : SN.Idx) (k : Fin 64) : SW.Idx := fun a => match a with
  | ⟨0, _⟩ => ⟨k.val, k.isLt⟩
  | ⟨1, _⟩ => ⟨(i 1).val, (i 1).isLt⟩
/-- The column entry (r, 0) that entry `i = (r, q)` scales by. -/
abbrev colIdx (i : SN.Idx) : SCol.Idx := fun a => match a with
  | ⟨0, _⟩ => ⟨(i 0).val, (i 0).isLt⟩
  | ⟨1, _⟩ => ⟨0, Nat.one_pos⟩
/-- The row entry (0, q) that entry `i = (r, q)` adds. -/
abbrev rowIdx (i : SN.Idx) : SRow.Idx := fun a => match a with
  | ⟨0, _⟩ => ⟨0, Nat.one_pos⟩
  | ⟨1, _⟩ => ⟨(i 1).val, (i 1).isLt⟩

/-- Rows times columns: entry (r, q) is Σₖ A(r, k) · B(k, q). -/
def rowsTimes (A : SN.Idx → EReal) (B : SW.Idx → EReal) : SN.Idx → EReal :=
  fun i => ∑ k : Fin 64, A (lIdx i k) * B (rIdx i k)

/-- A layer's pointwise tail: max(agg + hw · d + b, 0), `d` broadcast along rows' entries and `b` along columns'. -/
def combine (agg hw : SN.Idx → EReal) (d : SCol.Idx → EReal) (b : SRow.Idx → EReal) : SN.Idx → EReal :=
  fun i => max (agg i + hw i * d (colIdx i) + b (rowIdx i)) (Ideal.ofBits .f32 0x00000000#32)

end Cert.Spec

end
-- ==== Proof.Mat0.lean ====
/-
  Region 0 of the idealized kernel: a 100000×64 array times a 64×64 array, twenty blocks of 5000 rows.

  Point t loads rows 5000·t … 5000·t + 4999 of the left array and the whole right array, multiplies them into a zero
  accumulator (the roundings to bf16 on the way in are the identity on extended reals) and writes the 5000×64 product
  back to the same rows of the output.  Entry (p, q) of a block's product is Σₖ L(p, k) · R(k, q); read through the
  blocks that is Σₖ A(5000·t + p, k) · B(k, q), block t of `rowsTimes A B`.  The twenty row blocks tile the output, so
  the output array ends as `rowsTimes A B` of the arrays the region found.
-/
import proofs.«103716_j41532333752537_1_alg».proof.Proof.Gen.KernelIdeal.Frame
import proofs.«103716_j41532333752537_1_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Mat0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

local notation "Kdot" => dot_S5000x64_S64x64_S5000x64_1_0_0_1_n_n

theorem hz : (![0, 0] : Fin 2 → Nat) = fun _ => 0 := funext fun a => by fin_cases a <;> rfl

/-- Within a block: the left block's entry (p, k). -/
abbrev bl (j : S5000x64.Idx) (k : Fin 64) : S5000x64.Idx := fun a => match a with
  | ⟨0, _⟩ => ⟨(j 0).val, (j 0).isLt⟩
  | ⟨1, _⟩ => ⟨k.val, k.isLt⟩
/-- Within a block: the right array's entry (k, q). -/
abbrev br (j : S5000x64.Idx) (k : Fin 64) : S64x64.Idx := fun a => match a with
  | ⟨0, _⟩ => ⟨k.val, k.isLt⟩
  | ⟨1, _⟩ => ⟨(j 1).val, (j 1).isLt⟩

theorem lhs0 (i : S5000x64.Idx) (q : (Kdot).contr.Idx) : ((Kdot).lhsIdx i q 0).val = (i 0).val := by
  unfold DotDims.lhsIdx
  rw [dif_neg (show ¬(0 : Fin S5000x64.rank) ∈ (Kdot).lhsBatch by decide), dif_pos (show (0 : Fin S5000x64.rank) ∈ (Kdot).lhsNonContracting by decide)]
  rfl
theorem lhs1 (i : S5000x64.Idx) (q : (Kdot).contr.Idx) : ((Kdot).lhsIdx i q 1).val = (q ⟨0, by decide⟩).val :=
  (Kdot).lhsIdx_val_of_single rfl i q
theorem rhs0 (i : S5000x64.Idx) (q : (Kdot).contr.Idx) : ((Kdot).rhsIdx i q 0).val = (q ⟨0, by decide⟩).val :=
  (Kdot).rhsIdx_val_of_single rfl i q
theorem rhs1 (i : S5000x64.Idx) (q : (Kdot).contr.Idx) : ((Kdot).rhsIdx i q 1).val = (i 1).val := by
  unfold DotDims.rhsIdx
  rw [dif_neg (show ¬(1 : Fin S64x64.rank) ∈ (Kdot).rhsBatch by decide), dif_pos (show (1 : Fin S64x64.rank) ∈ (Kdot).rhsNonContracting by decide)]
  rfl

/-- The body's product at an entry: Σₖ L(p, k) · R(k, q) — the accumulator starts at zero and the roundings on the way
    in are the identity. -/
theorem pay_apply (x0 : Vec Ideal S5000x64 .f32) (x1 : Vec Ideal S64x64 .f32) (j : S5000x64.Idx) :
    k0_pay1 (F := Ideal) x0 x1 j = ∑ k : Fin 64, x0 (bl j k) * x1 (br j k) := by
  unfold k0_pay1
  try dsimp only
  rw [shapeCast_self]
  simp only [matmul]
  refine (Ideal.matmul_constant_zero_apply Kdot none _ _ j).trans ?_
  rw [← Equiv.sum_comp (ValueIdx.contrEquiv1 Kdot 64 rfl rfl).symm]
  refine Finset.sum_congr rfl fun k _ => ?_
  have hk := ValueIdx.contrEquiv1_symm_val Kdot 64 rfl rfl k
  have el : (Kdot).lhsIdx j ((ValueIdx.contrEquiv1 Kdot 64 rfl rfl).symm k) = bl j k := funext fun a => Fin.ext (by
    match a with
    | ⟨0, _⟩ => exact lhs0 _ _
    | ⟨1, _⟩ => exact (lhs1 _ _).trans hk)
  have er : (Kdot).rhsIdx j ((ValueIdx.contrEquiv1 Kdot 64 rfl rfl).symm k) = br j k := funext fun a => Fin.ext (by
    match a with
    | ⟨0, _⟩ => exact (rhs0 _ _).trans hk
    | ⟨1, _⟩ => exact rhs1 _ _)
  rw [el, er]
  rfl

/-- The printed index maps over the grid: the left and output windows' row block is the point's number, every other
    block index is zero. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 20, ∃ t : Fin cfg0.N, t.val = q0.val :=
  (by decide +kernel : ∀ q0 : Fin 20, ∃ t : Fin grid0.N, t.val = q0.val)

variable (V : (c : Dev nD) → (b : Ref sig .tc) → Buf (Elt Ideal) ((c : Thread nD τ).loc b))

/-- What point `t` writes back is block `t` of the product of the arrays the region found. -/
theorem flushed_eq (c : Dev nD) (t : Fin cfg0.N) :
    (dat0 V c).flushed 2 t = ((cfg0.win 2).blk t).view.read (Elt Ideal) (rowsTimes (V c main_v33) (V c main_arg5)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  show k0_pay1 (F := Ideal) (iblk0 V c 0 t) (iblk0 V c 1 t) j = rowsTimes (V c main_v33) (V c main_arg5) (((cfg0.win 2).blk t).view.emb j)
  refine (pay_apply (iblk0 V c 0 t) (iblk0 V c 1 t) j).trans ?_
  unfold rowsTimes
  refine Finset.sum_congr rfl fun k _ => ?_
  have h0 : iblk0 V c 0 t (bl j k) = V c main_v33 (lIdx (((cfg0.win 2).blk t).view.emb j) k) := by
    show V c main_v33 (((cfg0.win 0).blk t).view.emb (bl j k)) = V c main_v33 _
    refine congrArg (V c main_v33) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : iblk0 V c 1 t (br j k) = V c main_arg5 (rIdx (((cfg0.win 2).blk t).view.emb j) k) := by
    show V c main_arg5 (((cfg0.win 1).blk t).view.emb (br j k)) = V c main_arg5 _
    refine congrArg (V c main_arg5) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- The twenty row blocks tile the output: row r lies in block r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the product of the two arrays the region found. -/
theorem final (c : Dev nD) : (dat0 V c).arrAt 2 cfg0.N = rowsTimes (V c main_v33) (V c main_arg5) :=
  (dat0 V c).arrAt_eq_of_cover 2 _ (fun t _ => flushed_eq V c t) cover

end Cert.KernelIdeal.Mat0

end
-- ==== Proof.Mat2.lean ====
/-
  Region 2 of the idealized kernel: a 100000×64 array times a 64×64 array, twenty blocks of 5000 rows.

  Point t loads rows 5000·t … 5000·t + 4999 of the left array and the whole right array, multiplies them into a zero
  accumulator (the roundings to bf16 on the way in are the identity on extended reals) and writes the 5000×64 product
  back to the same rows of the output.  Entry (p, q) of a block's product is Σₖ L(p, k) · R(k, q); read through the
  blocks that is Σₖ A(5000·t + p, k) · B(k, q), block t of `rowsTimes A B`.  The twenty row blocks tile the output, so
  the output array ends as `rowsTimes A B` of the arrays the region found.
-/
import proofs.«103716_j41532333752537_1_alg».proof.Proof.Gen.KernelIdeal.Frame
import proofs.«103716_j41532333752537_1_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Mat2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

local notation "Kdot" => dot_S5000x64_S64x64_S5000x64_1_0_0_1_n_n

theorem hz : (![0, 0] : Fin 2 → Nat) = fun _ => 0 := funext fun a => by fin_cases a <;> rfl

/-- Within a block: the left block's entry (p, k). -/
abbrev bl (j : S5000x64.Idx) (k : Fin 64) : S5000x64.Idx := fun a => match a with
  | ⟨0, _⟩ => ⟨(j 0).val, (j 0).isLt⟩
  | ⟨1, _⟩ => ⟨k.val, k.isLt⟩
/-- Within a block: the right array's entry (k, q). -/
abbrev br (j : S5000x64.Idx) (k : Fin 64) : S64x64.Idx := fun a => match a with
  | ⟨0, _⟩ => ⟨k.val, k.isLt⟩
  | ⟨1, _⟩ => ⟨(j 1).val, (j 1).isLt⟩

theorem lhs0 (i : S5000x64.Idx) (q : (Kdot).contr.Idx) : ((Kdot).lhsIdx i q 0).val = (i 0).val := by
  unfold DotDims.lhsIdx
  rw [dif_neg (show ¬(0 : Fin S5000x64.rank) ∈ (Kdot).lhsBatch by decide), dif_pos (show (0 : Fin S5000x64.rank) ∈ (Kdot).lhsNonContracting by decide)]
  rfl
theorem lhs1 (i : S5000x64.Idx) (q : (Kdot).contr.Idx) : ((Kdot).lhsIdx i q 1).val = (q ⟨0, by decide⟩).val :=
  (Kdot).lhsIdx_val_of_single rfl i q
theorem rhs0 (i : S5000x64.Idx) (q : (Kdot).contr.Idx) : ((Kdot).rhsIdx i q 0).val = (q ⟨0, by decide⟩).val :=
  (Kdot).rhsIdx_val_of_single rfl i q
theorem rhs1 (i : S5000x64.Idx) (q : (Kdot).contr.Idx) : ((Kdot).rhsIdx i q 1).val = (i 1).val := by
  unfold DotDims.rhsIdx
  rw [dif_neg (show ¬(1 : Fin S64x64.rank) ∈ (Kdot).rhsBatch by decide), dif_pos (show (1 : Fin S64x64.rank) ∈ (Kdot).rhsNonContracting by decide)]
  rfl

/-- The body's product at an entry: Σₖ L(p, k) · R(k, q) — the accumulator starts at zero and the roundings on the way
    in are the identity. -/
theorem pay_apply (x0 : Vec Ideal S5000x64 .f32) (x1 : Vec Ideal S64x64 .f32) (j : S5000x64.Idx) :
    k2_pay1 (F := Ideal) x0 x1 j = ∑ k : Fin 64, x0 (bl j k) * x1 (br j k) := by
  unfold k2_pay1
  try dsimp only
  rw [shapeCast_self]
  simp only [matmul]
  refine (Ideal.matmul_constant_zero_apply Kdot none _ _ j).trans ?_
  rw [← Equiv.sum_comp (ValueIdx.contrEquiv1 Kdot 64 rfl rfl).symm]
  refine Finset.sum_congr rfl fun k _ => ?_
  have hk := ValueIdx.contrEquiv1_symm_val Kdot 64 rfl rfl k
  have el : (Kdot).lhsIdx j ((ValueIdx.contrEquiv1 Kdot 64 rfl rfl).symm k) = bl j k := funext fun a => Fin.ext (by
    match a with
    | ⟨0, _⟩ => exact lhs0 _ _
    | ⟨1, _⟩ => exact (lhs1 _ _).trans hk)
  have er : (Kdot).rhsIdx j ((ValueIdx.contrEquiv1 Kdot 64 rfl rfl).symm k) = br j k := funext fun a => Fin.ext (by
    match a with
    | ⟨0, _⟩ => exact (rhs0 _ _).trans hk
    | ⟨1, _⟩ => exact rhs1 _ _)
  rw [el, er]
  rfl

/-- The printed index maps over the grid: the left and output windows' row block is the point's number, every other
    block index is zero. -/
theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ q0 : Fin 20, ∃ t : Fin cfg2.N, t.val = q0.val :=
  (by decide +kernel : ∀ q0 : Fin 20, ∃ t : Fin grid2.N, t.val = q0.val)

variable (V : (c : Dev nD) → (b : Ref sig .tc) → Buf (Elt Ideal) ((c : Thread nD τ).loc b))

/-- What point `t` writes back is block `t` of the product of the arrays the region found. -/
theorem flushed_eq (c : Dev nD) (t : Fin cfg2.N) :
    (dat2 V c).flushed 2 t = ((cfg2.win 2).blk t).view.read (Elt Ideal) (rowsTimes (V c main_v50) (V c main_arg7)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext j
  show k2_pay1 (F := Ideal) (iblk2 V c 0 t) (iblk2 V c 1 t) j = rowsTimes (V c main_v50) (V c main_arg7) (((cfg2.win 2).blk t).view.emb j)
  refine (pay_apply (iblk2 V c 0 t) (iblk2 V c 1 t) j).trans ?_
  unfold rowsTimes
  refine Finset.sum_congr rfl fun k _ => ?_
  have h0 : iblk2 V c 0 t (bl j k) = V c main_v50 (lIdx (((cfg2.win 2).blk t).view.emb j) k) := by
    show V c main_v50 (((cfg2.win 0).blk t).view.emb (bl j k)) = V c main_v50 _
    refine congrArg (V c main_v50) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : iblk2 V c 1 t (br j k) = V c main_arg7 (rIdx (((cfg2.win 2).blk t).view.emb j) k) := by
    show V c main_arg7 (((cfg2.win 1).blk t).view.emb (br j k)) = V c main_arg7 _
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [h0, h1]

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v51).slice (win2_2.rect t)).set ↔ _
  rw [View.set_slice_whole, Rect.mem_set_unit]
  exact Iff.rfl

/-- The twenty row blocks tile the output: row r lies in block r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: the product of the two arrays the region found. -/
theorem final (c : Dev nD) : (dat2 V c).arrAt 2 cfg2.N = rowsTimes (V c main_v50) (V c main_arg7) :=
  (dat2 V c).arrAt_eq_of_cover 2 _ (fun t _ => flushed_eq V c t) cover

end Cert.KernelIdeal.Mat2

end
-- ==== Proof.Comb1.lean ====
/-
  Region 1 of the idealized kernel: the pointwise tail of a graph-convolution layer, twenty blocks of 5000 rows.

  Point t loads rows 5000·t … 5000·t + 4999 of the aggregate, of the transformed features and of the scale column,
  and the whole bias row, and writes max(agg + hw · d + b, 0) back to the same rows of the output, the scale `d`
  repeated along each row and the bias `b` along each column.  Every entry depends only on the entries of the same
  row and column, so block t of the output is block t of `combine agg hw d b`; the twenty row blocks tile the output.
-/
import proofs.«103716_j41532333752537_1_alg».proof.Proof.Gen.KernelIdeal.Frame
import proofs.«103716_j41532333752537_1_alg».proof.Proof.Spec
import Idealize.ShloMosaic.Lib.Pipeline.Value
import Idealize.ShloMosaic.Lib.ValueIdx
set_option maxRecDepth 16384

noncomputable section

namespace Cert.KernelIdeal.Comb1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

theorem hz : (![0, 0] : Fin 2 → Nat) = fun _ => 0 := funext fun a => by fin_cases a <;> rfl

/-- Within a block: the scale column's entry (p, 0). -/
abbrev bcol (j : S5000x64.Idx) : S5000x1.Idx := fun a => match a with
  | ⟨0, _⟩ => ⟨(j 0).val, (j 0).isLt⟩
  | ⟨1, _⟩ => ⟨0, Nat.one_pos⟩
/-- Within a block: the bias row's entry (0, q). -/
abbrev brow (j : S5000x64.Idx) : S1x64.Idx := fun a => match a with
  | ⟨0, _⟩ => ⟨0, Nat.one_pos⟩
  | ⟨1, _⟩ => ⟨(j 1).val, (j 1).isLt⟩

/-- The body's value at an entry: max(agg + hw · d + b, 0) of the loaded blocks' entries in the same row and column. -/
theorem pay_apply (x0 x2 : Vec Ideal S5000x64 .f32) (x4 : Vec Ideal S5000x1 .f32) (x6 : Vec Ideal S1x64 .f32) (j : S5000x64.Idx) :
    k1_pay1 (F := Ideal) x0 x2 x4 x6 j = max (x0 j + x2 j * x4 (bcol j) + x6 (brow j)) (Ideal.ofBits .f32 0x00000000#32) := by
  unfold k1_pay1
  try dsimp only
  simp only [shapeCast_self]
  have hc : broadcastTo S5000x64 x4 broadcasts_S5000x1_S5000x64 j = x4 (bcol j) :=
    broadcastTo_apply x4 broadcasts_S5000x1_S5000x64 j (bcol j) (fun a => by
      match a with
      | ⟨0, _⟩ => exact (if_neg (show ¬ S5000x1.size (0 : Fin 2) = 1 by decide)).symm
      | ⟨1, _⟩ => exact (if_pos rfl).symm)
  have hr : broadcastTo S5000x64 x6 broadcasts_S1x64_S5000x64 j = x6 (brow j) :=
    broadcastTo_apply x6 broadcasts_S1x64_S5000x64 j (brow j) (fun a => by
      match a with
      | ⟨0, _⟩ => exact (if_pos rfl).symm
      | ⟨1, _⟩ => exact (if_neg (show ¬ S1x64.size (1 : Fin 2) = 1 by decide)).symm)
  show max (x0 j + x2 j * broadcastTo S5000x64 x4 broadcasts_S5000x1_S5000x64 j + broadcastTo S5000x64 x6 broadcasts_S1x64_S5000x64 j) (Ideal.ofBits .f32 0x00000000#32) = _
  rw [hc, hr]

/-- The printed index maps over the grid: the row block of every window that moves is the point's number, every
    other block index is zero. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block is some point's. -/
theorem idx_onto : ∀ q0 : Fin 20, ∃ t : Fin cfg1.N, t.val = q0.val :=
  (by decide +kernel : ∀ q0 : Fin 20, ∃ t : Fin grid1.N, t.val = q0.val)

variable (V : (c : Dev nD) → (b : Ref sig .tc) → Buf (Elt Ideal) ((c : Thread nD τ).loc b))

/-- What point `t` writes back is block `t` of the layer's tail of the arrays the region found. -/
theorem flushed_eq (c : Dev nD) (t : Fin cfg1.N) :
    (dat1 V c).flushed 4 t = ((cfg1.win 4).blk t).view.read (Elt Ideal)
      (combine (V c main_v47) (V c main_v34) (V c main_v48) (V c main_v49)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  show k1_pay1 (F := Ideal) (iblk1 V c 0 t) (iblk1 V c 1 t) (iblk1 V c 2 t) (iblk1 V c 3 t) j
    = combine (V c main_v47) (V c main_v34) (V c main_v48) (V c main_v49) (((cfg1.win 4).blk t).view.emb j)
  refine (pay_apply (iblk1 V c 0 t) (iblk1 V c 1 t) (iblk1 V c 2 t) (iblk1 V c 3 t) j).trans ?_
  unfold combine
  have h0 : iblk1 V c 0 t j = V c main_v47 (((cfg1.win 4).blk t).view.emb j) := by
    show V c main_v47 (((cfg1.win 0).blk t).view.emb j) = V c main_v47 _
    refine congrArg (V c main_v47) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have h1 : iblk1 V c 1 t j = V c main_v34 (((cfg1.win 4).blk t).view.emb j) := by
    show V c main_v34 (((cfg1.win 1).blk t).view.emb j) = V c main_v34 _
    refine congrArg (V c main_v34) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  have h2 : iblk1 V c 2 t (bcol j) = V c main_v48 (colIdx (((cfg1.win 4).blk t).view.emb j)) := by
    show V c main_v48 (((cfg1.win 2).blk t).view.emb (bcol j)) = V c main_v48 _
    refine congrArg (V c main_v48) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : iblk1 V c 3 t (brow j) = V c main_v49 (rowIdx (((cfg1.win 4).blk t).view.emb j)) := by
    show V c main_v49 (((cfg1.win 3).blk t).view.emb (brow j)) = V c main_v49 _
    refine congrArg (V c main_v49) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  rw [h0, h1, h2, h3]

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v50).slice (win1_4.rect t)).set ↔ _
  rw [View.set_slice_whole, Rect.mem_set_unit]
  exact Iff.rfl

/-- The twenty row blocks tile the output: row r lies in block r / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, e8, e9⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region: the layer's tail of the four arrays the region found. -/
theorem final (c : Dev nD) : (dat1 V c).arrAt 4 cfg1.N = combine (V c main_v47) (V c main_v34) (V c main_v48) (V c main_v49) :=
  (dat1 V c).arrAt_eq_of_cover 4 _ (fun t _ => flushed_eq V c t) cover

end Cert.KernelIdeal.Comb1

end
-- ==== Proof.RefForms.lean ====
/-
  The reference's host operations, read at an index, are the whole-array functions of `Spec`.

  * jnp's `dot_general` of a 100000×64 array with a 64×64 array is `rowsTimes`: at the exact values a
    `dot_general` entry is the plain sum over the contracted axis.
  * The reference's layer tail — multiply by the scale broadcast along rows, add the aggregate, add the bias
    broadcast along columns, take the maximum with zero — is `combine` of the scale as a column and the bias
    as a row: each broadcast reads its operand at the entry's row or column.
-/
import proofs.«103716_j41532333752537_1_alg».proof.Proof.Gen.ReferenceIdeal.Read
import proofs.«103716_j41532333752537_1_alg».proof.Proof.Spec
import Idealize.ShloMosaic.Lib.Pipeline.Value
import Idealize.ShloMosaic.Lib.ValueIdx
import Idealize.ShloMosaic.PureOps.Ideal.Laws

noncomputable section

namespace Cert.ReferenceIdeal.Forms

open Cert.ReferenceIdeal Cert.ReferenceIdeal.Gen Cert.ReferenceIdeal.Read Idealize.ShloMosaic Idealize.ShloMosaic.TcCoe Cert.Spec

/-- The host's product of a 100000×64 array with a 64×64 array is rows times columns. -/
theorem dot_eq (A : FVec Ideal S100000x64 .f32) (B : FVec Ideal S64x64 .f32) :
    Host.dotGeneral (F := Ideal) dot_S100000x64_S64x64_S100000x64_1_0_0_1_n_n none A B = rowsTimes A B := by
  funext i
  unfold rowsTimes
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : (dot_S100000x64_S64x64_S100000x64_1_0_0_1_n_n).lhsIdx i ((ValueIdx.contrEquiv1 dot_S100000x64_S64x64_S100000x64_1_0_0_1_n_n 64 rfl rfl).symm k) = lIdx i k := funext fun a => Fin.ext (by
    match a with
    | ⟨0, _⟩ => exact lhs_main_v34_0 _ _
    | ⟨1, _⟩ => exact (lhs_main_v34_1 _ _).trans hk)
  have er : (dot_S100000x64_S64x64_S100000x64_1_0_0_1_n_n).rhsIdx i ((ValueIdx.contrEquiv1 dot_S100000x64_S64x64_S100000x64_1_0_0_1_n_n 64 rfl rfl).symm k) = rIdx i k := funext fun a => Fin.ext (by
    match a with
    | ⟨0, _⟩ => exact (rhs_main_v34_0 _ _).trans hk
    | ⟨1, _⟩ => exact rhs_main_v34_1 _ _)
  rw [el, er]

variable {F : FTy → Type} [FloatOps F]

/-- The reference's layer tail as it is written: the scale broadcast to a column and then along rows, the bias to a
    row and then along columns, the maximum with the zero splat. -/
def tailRef (agg hw : FVec F S100000x64 .f32) (d : FVec F S100000 .f32)
    (b : FVec F S64 .f32) : FVec F S100000x64 .f32 :=
  maximumf
    (addf
      (addf agg (mulf hw (broadcastInDim S100000x64 ![0, 1] bcast_S100000x1_S100000x64_0_1 (broadcastInDim S100000x1 ![0] bcast_S100000_S100000x1_0 d))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- Row r of the scale. -/
abbrev dIdx (i : S100000x64.Idx) : S100000.Idx := fun a => match a with
  | ⟨0, _⟩ => ⟨(i 0).val, (i 0).isLt⟩
/-- Column q of the bias. -/
abbrev bIdx (i : S100000x64.Idx) : S64.Idx := fun a => match a with
  | ⟨0, _⟩ => ⟨(i 1).val, (i 1).isLt⟩

/-- The reference's layer tail is `combine` of the scale reshaped to a column and the bias reshaped to a row. -/
theorem tail_eq (agg hw : FVec Ideal S100000x64 .f32) (d : FVec Ideal S100000 .f32)
    (b : FVec Ideal S64 .f32) (h1 : S100000.ShapeCasts S100000x1) (h2 : S64.ShapeCasts S1x64) :
    combine agg hw (shapeCast S100000x1 d h1) (shapeCast S1x64 b h2) = tailRef (F := Ideal) agg hw d b := by
  funext i
  have e1 : shapeCast S100000x1 d h1 (colIdx i) = d (dIdx i) :=
    shapeCast_apply d h1 (colIdx i) (dIdx i)
      (by rewrite [Shape.rowMajor_val_two, Shape.rowMajor_val_one]; show (i 0).val = (i 0).val * 1 + 0; omega)
  have e2 : shapeCast S1x64 b h2 (rowIdx i) = b (bIdx i) :=
    shapeCast_apply b h2 (rowIdx i) (bIdx i)
      (by rewrite [Shape.rowMajor_val_two, Shape.rowMajor_val_one]; show (i 1).val = 0 * 64 + (i 1).val; omega)
  have e3 : broadcastInDim S100000x64 ![0, 1] bcast_S100000x1_S100000x64_0_1 (broadcastInDim S100000x1 ![0] bcast_S100000_S100000x1_0 d) i = d (dIdx i) :=
    (broadcastInDim_apply _ bcast_S100000x1_S100000x64_0_1 _ i (colIdx i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])).trans
    (broadcastInDim_apply _ bcast_S100000_S100000x1_0 d (colIdx i) (dIdx i) (fun a => match a with
      | ⟨0, _⟩ => by show (i 0).val = if (100000 : Nat) = 1 then 0 else (i 0).val; rw [if_neg (by decide)]))
  have e4 : broadcastInDim S100000x64 ![0, 1] bcast_S1x64_S100000x64_0_1 (broadcastInDim S1x64 ![1] bcast_S64_S1x64_1 b) i = b (bIdx i) :=
    (broadcastInDim_apply _ bcast_S1x64_S100000x64_0_1 _ i (rowIdx i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])).trans
    (broadcastInDim_apply _ bcast_S64_S1x64_1 b (rowIdx i) (bIdx i) (fun a => match a with
      | ⟨0, _⟩ => by show (i 1).val = if (64 : Nat) = 1 then 0 else (i 1).val; rw [if_neg (by decide)]))
  unfold combine tailRef
  show max (agg i + hw i * shapeCast S100000x1 d h1 (colIdx i) + shapeCast S1x64 b h2 (rowIdx i)) (Ideal.ofBits .f32 0x00000000#32)
     = max (agg i + hw i * broadcastInDim S100000x64 ![0, 1] bcast_S100000x1_S100000x64_0_1 (broadcastInDim S100000x1 ![0] bcast_S100000_S100000x1_0 d) i
          + broadcastInDim S100000x64 ![0, 1] bcast_S1x64_S100000x64_0_1 (broadcastInDim S1x64 ![1] bcast_S64_S1x64_1 b) i) (Ideal.ofBits .f32 0x00000000#32)
  rw [e1, e2, e3, e4]

end Cert.ReferenceIdeal.Forms

end
-- ==== Proof.Chain1.lean ====
/-
  Layer by layer the idealized kernel's buffers hold the reference's stages of the same arguments.

  A host stretch applies the reference's own operations (gather the transformed features along the edges, scale by
  the edge normalisation, scatter-add into the nodes) to buffers already identified with the reference's stages; a
  tail region leaves `combine` of its four arrays, the reference's rectified sum; a transform region leaves
  `rowsTimes` of its two arrays, the reference's product.  Buffers no operation and no region writes are carried
  along unchanged.
-/
import proofs.«103716_j41532333752537_1_alg».proof.Proof.Gen.KernelIdeal.Frame
import proofs.«103716_j41532333752537_1_alg».proof.Proof.Chain0
import proofs.«103716_j41532333752537_1_alg».proof.Proof.Mat0
import proofs.«103716_j41532333752537_1_alg».proof.Proof.Mat2
import proofs.«103716_j41532333752537_1_alg».proof.Proof.Comb1
import proofs.«103716_j41532333752537_1_alg».proof.Proof.RefForms
import Idealize.ShloMosaic.Lib.StableHlo.Run
set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-! ## The first transform -/

theorem w2_v34 : W2 m ρ c (Proc.devRef .tc main_v34) = Cert.ReferenceIdeal.Read.val_main_v34 (F := Ideal) a0 a4 a5 := by
  refine (W2_arr m ρ c 2).trans ?_
  refine (Cert.KernelIdeal.Mat0.final (V1 m ρ) c).trans ?_
  show Cert.Spec.rowsTimes (W1 m ρ c (Proc.devRef .tc main_v33)) (W1 m ρ c (Proc.devRef .tc main_arg5)) = _
  rw [w1_v33 m ρ c, w1_arg5 m ρ c]
  exact (Cert.ReferenceIdeal.Forms.dot_eq _ _).symm

theorem w2_v1 : W2 m ρ c (Proc.devRef .tc main_v1) = Cert.ReferenceIdeal.Read.val_main_v1 (F := Ideal) a1 :=
  (W2_of_ne m ρ c main_v1 (by decide)).trans (w1_v1 m ρ c)

theorem w2_v3 : W2 m ρ c (Proc.devRef .tc main_v3) = Cert.ReferenceIdeal.Read.val_main_v3 (F := Ideal) a1 :=
  (W2_of_ne m ρ c main_v3 (by decide)).trans (w1_v3 m ρ c)

theorem w2_v25 : W2 m ρ c (Proc.devRef .tc main_v25) = Cert.ReferenceIdeal.Read.val_main_v25 (F := Ideal) a1 :=
  (W2_of_ne m ρ c main_v25 (by decide)).trans (w1_v25 m ρ c)

theorem w2_v26 : W2 m ρ c (Proc.devRef .tc main_v26) = Cert.ReferenceIdeal.Read.val_main_v26 (F := Ideal) a1 :=
  (W2_of_ne m ρ c main_v26 (by decide)).trans (w1_v26 m ρ c)

theorem w2_arg6 : W2 m ρ c (Proc.devRef .tc main_arg6) = a6 :=
  (Eq.trans (W2_of_ne m ρ c main_arg6 (by decide)) (by show StableHlo.after hostOps0 (W0 m ρ c) (Proc.devRef .tc main_arg6) = _; after_results_simp))

/-! ## Layer 1 -/

/-- The aggregate of layer 1: the host's gather, scale and scatter-add of the transformed features, the same operations as the reference's. -/
theorem w3_v47 : W3 m ρ c (Proc.devRef .tc main_v47) = Cert.ReferenceIdeal.Read.val_main_v47 (F := Ideal) a0 a1 a4 a5 := by
  show StableHlo.after hostOps1 (W2 m ρ c) (Proc.devRef .tc main_v47) = _
  after_results_simp
  rw [w2_v34 m ρ c, w2_v3 m ρ c, w2_v25 m ρ c, w2_v1 m ρ c]
  rfl

theorem w3_v48 : W3 m ρ c (Proc.devRef .tc main_v48) = shapeCast S100000x1 (Cert.ReferenceIdeal.Read.val_main_v26 (F := Ideal) a1) shapeCasts_S100000_S100000x1 := by
  show StableHlo.after hostOps1 (W2 m ρ c) (Proc.devRef .tc main_v48) = _
  after_results_simp
  rw [w2_v26 m ρ c]
  rfl

theorem w3_v49 : W3 m ρ c (Proc.devRef .tc main_v49) = shapeCast S1x64 a6 shapeCasts_S64_S1x64 := by
  show StableHlo.after hostOps1 (W2 m ρ c) (Proc.devRef .tc main_v49) = _
  after_results_simp
  rw [w2_arg6 m ρ c]
  rfl

theorem w3_v34 : W3 m ρ c (Proc.devRef .tc main_v34) = Cert.ReferenceIdeal.Read.val_main_v34 (F := Ideal) a0 a4 a5 :=
  Eq.trans (by show StableHlo.after hostOps1 (W2 m ρ c) (Proc.devRef .tc main_v34) = _; after_results_simp) (w2_v34 m ρ c)

/-- Layer 1's tail: the region's output is the reference's rectified sum of the same four arrays. -/
theorem w4_v50 : W4 m ρ c (Proc.devRef .tc main_v50) = Cert.ReferenceIdeal.Read.val_main_v55 (F := Ideal) a0 a1 a4 a5 a6 := by
  refine (W4_arr m ρ c 4).trans ?_
  refine (Cert.KernelIdeal.Comb1.final (V3 m ρ) c).trans ?_
  show Cert.Spec.combine (W3 m ρ c (Proc.devRef .tc main_v47)) (W3 m ρ c (Proc.devRef .tc main_v34)) (W3 m ρ c (Proc.devRef .tc main_v48)) (W3 m ρ c (Proc.devRef .tc main_v49)) = _
  rw [w3_v47 m ρ c, w3_v34 m ρ c, w3_v48 m ρ c, w3_v49 m ρ c]
  exact Cert.ReferenceIdeal.Forms.tail_eq _ _ _ _ _ _

theorem w4_arg7 : W4 m ρ c (Proc.devRef .tc main_arg7) = a7 :=
  (Eq.trans (W4_of_ne m ρ c main_arg7 (by decide)) (Eq.trans (by show StableHlo.after hostOps1 (W2 m ρ c) (Proc.devRef .tc main_arg7) = _; after_results_simp) (Eq.trans (W2_of_ne m ρ c main_arg7 (by decide)) (by show StableHlo.after hostOps0 (W0 m ρ c) (Proc.devRef .tc main_arg7) = _; after_results_simp))))

/-- The next layer's transform: the region's output is the reference's product of the same two arrays. -/
theorem w5_v51 : W5 m ρ c (Proc.devRef .tc main_v51) = Cert.ReferenceIdeal.Read.val_main_v56 (F := Ideal) a0 a1 a4 a5 a6 a7 := by
  refine (W5_arr m ρ c 2).trans ?_
  refine (Cert.KernelIdeal.Mat2.final (V4 m ρ) c).trans ?_
  show Cert.Spec.rowsTimes (W4 m ρ c (Proc.devRef .tc main_v50)) (W4 m ρ c (Proc.devRef .tc main_arg7)) = _
  rw [w4_v50 m ρ c, w4_arg7 m ρ c]
  exact (Cert.ReferenceIdeal.Forms.dot_eq _ _).symm

theorem w5_v1 : W5 m ρ c (Proc.devRef .tc main_v1) = Cert.ReferenceIdeal.Read.val_main_v1 (F := Ideal) a1 :=
  ((Eq.trans (W5_of_ne m ρ c main_v1 (by decide)) (Eq.trans (W4_of_ne m ρ c main_v1 (by decide)) (by show StableHlo.after hostOps1 (W2 m ρ c) (Proc.devRef .tc main_v1) = _; after_results_simp)))).trans (w2_v1 m ρ c)

theorem w5_v3 : W5 m ρ c (Proc.devRef .tc main_v3) = Cert.ReferenceIdeal.Read.val_main_v3 (F := Ideal) a1 :=
  ((Eq.trans (W5_of_ne m ρ c main_v3 (by decide)) (Eq.trans (W4_of_ne m ρ c main_v3 (by decide)) (by show StableHlo.after hostOps1 (W2 m ρ c) (Proc.devRef .tc main_v3) = _; after_results_simp)))).trans (w2_v3 m ρ c)

theorem w5_v25 : W5 m ρ c (Proc.devRef .tc main_v25) = Cert.ReferenceIdeal.Read.val_main_v25 (F := Ideal) a1 :=
  ((Eq.trans (W5_of_ne m ρ c main_v25 (by decide)) (Eq.trans (W4_of_ne m ρ c main_v25 (by decide)) (by show StableHlo.after hostOps1 (W2 m ρ c) (Proc.devRef .tc main_v25) = _; after_results_simp)))).trans (w2_v25 m ρ c)

theorem w5_v26 : W5 m ρ c (Proc.devRef .tc main_v26) = Cert.ReferenceIdeal.Read.val_main_v26 (F := Ideal) a1 :=
  ((Eq.trans (W5_of_ne m ρ c main_v26 (by decide)) (Eq.trans (W4_of_ne m ρ c main_v26 (by decide)) (by show StableHlo.after hostOps1 (W2 m ρ c) (Proc.devRef .tc main_v26) = _; after_results_simp)))).trans (w2_v26 m ρ c)

theorem w5_arg8 : W5 m ρ c (Proc.devRef .tc main_arg8) = a8 :=
  (Eq.trans (W5_of_ne m ρ c main_arg8 (by decide)) (Eq.trans (W4_of_ne m ρ c main_arg8 (by decide)) (Eq.trans (by show StableHlo.after hostOps1 (W2 m ρ c) (Proc.devRef .tc main_arg8) = _; after_results_simp) (Eq.trans (W2_of_ne m ρ c main_arg8 (by decide)) (by show StableHlo.after hostOps0 (W0 m ρ c) (Proc.devRef .tc main_arg8) = _; after_results_simp)))))

end Cert.KernelIdeal.Chain

end
-- ==== Proof.Mat4.lean ====
/-
  Region 4 of the idealized kernel: a 100000×64 array times a 64×64 array, twenty blocks of 5000 rows.

  Point t loads rows 5000·t … 5000·t + 4999 of the left array and the whole right array, multiplies them into a zero
  accumulator (the roundings to bf16 on the way in are the identity on extended reals) and writes the 5000×64 product
  back to the same rows of the output.  Entry (p, q) of a block's product is Σₖ L(p, k) · R(k, q); read through the
  blocks that is Σₖ A(5000·t + p, k) · B(k, q), block t of `rowsTimes A B`.  The twenty row blocks tile the output, so
  the output array ends as `rowsTimes A B` of the arrays the region found.
-/
import proofs.«103716_j41532333752537_1_alg».proof.Proof.Gen.KernelIdeal.Frame
import proofs.«103716_j41532333752537_1_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Mat4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

local notation "Kdot" => dot_S5000x64_S64x64_S5000x64_1_0_0_1_n_n

theorem hz : (![0, 0] : Fin 2 → Nat) = fun _ => 0 := funext fun a => by fin_cases a <;> rfl

/-- Within a block: the left block's entry (p, k). -/
abbrev bl (j : S5000x64.Idx) (k : Fin 64) : S5000x64.Idx := fun a => match a with
  | ⟨0, _⟩ => ⟨(j 0).val, (j 0).isLt⟩
  | ⟨1, _⟩ => ⟨k.val, k.isLt⟩
/-- Within a block: the right array's entry (k, q). -/
abbrev br (j : S5000x64.Idx) (k : Fin 64) : S64x64.Idx := fun a => match a with
  | ⟨0, _⟩ => ⟨k.val, k.isLt⟩
  | ⟨1, _⟩ => ⟨(j 1).val, (j 1).isLt⟩

theorem lhs0 (i : S5000x64.Idx) (q : (Kdot).contr.Idx) : ((Kdot).lhsIdx i q 0).val = (i 0).val := by
  unfold DotDims.lhsIdx
  rw [dif_neg (show ¬(0 : Fin S5000x64.rank) ∈ (Kdot).lhsBatch by decide), dif_pos (show (0 : Fin S5000x64.rank) ∈ (Kdot).lhsNonContracting by decide)]
  rfl
theorem lhs1 (i : S5000x64.Idx) (q : (Kdot).contr.Idx) : ((Kdot).lhsIdx i q 1).val = (q ⟨0, by decide⟩).val :=
  (Kdot).lhsIdx_val_of_single rfl i q
theorem rhs0 (i : S5000x64.Idx) (q : (Kdot).contr.Idx) : ((Kdot).rhsIdx i q 0).val = (q ⟨0, by decide⟩).val :=
  (Kdot).rhsIdx_val_of_single rfl i q
theorem rhs1 (i : S5000x64.Idx) (q : (Kdot).contr.Idx) : ((Kdot).rhsIdx i q 1).val = (i 1).val := by
  unfold DotDims.rhsIdx
  rw [dif_neg (show ¬(1 : Fin S64x64.rank) ∈ (Kdot).rhsBatch by decide), dif_pos (show (1 : Fin S64x64.rank) ∈ (Kdot).rhsNonContracting by decide)]
  rfl

/-- The body's product at an entry: Σₖ L(p, k) · R(k, q) — the accumulator starts at zero and the roundings on the way
    in are the identity. -/
theorem pay_apply (x0 : Vec Ideal S5000x64 .f32) (x1 : Vec Ideal S64x64 .f32) (j : S5000x64.Idx) :
    k4_pay1 (F := Ideal) x0 x1 j = ∑ k : Fin 64, x0 (bl j k) * x1 (br j k) := by
  unfold k4_pay1
  try dsimp only
  rw [shapeCast_self]
  simp only [matmul]
  refine (Ideal.matmul_constant_zero_apply Kdot none _ _ j).trans ?_
  rw [← Equiv.sum_comp (ValueIdx.contrEquiv1 Kdot 64 rfl rfl).symm]
  refine Finset.sum_congr rfl fun k _ => ?_
  have hk := ValueIdx.contrEquiv1_symm_val Kdot 64 rfl rfl k
  have el : (Kdot).lhsIdx j ((ValueIdx.contrEquiv1 Kdot 64 rfl rfl).symm k) = bl j k := funext fun a => Fin.ext (by
    match a with
    | ⟨0, _⟩ => exact lhs0 _ _
    | ⟨1, _⟩ => exact (lhs1 _ _).trans hk)
  have er : (Kdot).rhsIdx j ((ValueIdx.contrEquiv1 Kdot 64 rfl rfl).symm k) = br j k := funext fun a => Fin.ext (by
    match a with
    | ⟨0, _⟩ => exact (rhs0 _ _).trans hk
    | ⟨1, _⟩ => exact rhs1 _ _)
  rw [el, er]
  rfl

/-- The printed index maps over the grid: the left and output windows' row block is the point's number, every other
    block index is zero. -/
theorem idx_facts : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem idx_onto : ∀ q0 : Fin 20, ∃ t : Fin cfg4.N, t.val = q0.val :=
  (by decide +kernel : ∀ q0 : Fin 20, ∃ t : Fin grid4.N, t.val = q0.val)

variable (V : (c : Dev nD) → (b : Ref sig .tc) → Buf (Elt Ideal) ((c : Thread nD τ).loc b))

/-- What point `t` writes back is block `t` of the product of the arrays the region found. -/
theorem flushed_eq (c : Dev nD) (t : Fin cfg4.N) :
    (dat4 V c).flushed 2 t = ((cfg4.win 2).blk t).view.read (Elt Ideal) (rowsTimes (V c main_v67) (V c main_arg9)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := idx_facts t
  funext j
  show k4_pay1 (F := Ideal) (iblk4 V c 0 t) (iblk4 V c 1 t) j = rowsTimes (V c main_v67) (V c main_arg9) (((cfg4.win 2).blk t).view.emb j)
  refine (pay_apply (iblk4 V c 0 t) (iblk4 V c 1 t) j).trans ?_
  unfold rowsTimes
  refine Finset.sum_congr rfl fun k _ => ?_
  have h0 : iblk4 V c 0 t (bl j k) = V c main_v67 (lIdx (((cfg4.win 2).blk t).view.emb j) k) := by
    show V c main_v67 (((cfg4.win 0).blk t).view.emb (bl j k)) = V c main_v67 _
    refine congrArg (V c main_v67) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have h1 : iblk4 V c 1 t (br j k) = V c main_arg9 (rIdx (((cfg4.win 2).blk t).view.emb j) k) := by
    show V c main_arg9 (((cfg4.win 1).blk t).view.emb (br j k)) = V c main_arg9 _
    refine congrArg (V c main_arg9) (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  rw [h0, h1]

/-- An index of the output array is in point `t`'s block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v68).slice (win4_2.rect t)).set ↔ _
  rw [View.set_slice_whole, Rect.mem_set_unit]
  exact Iff.rfl

/-- The twenty row blocks tile the output: row r lies in block r / 5000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, e4, e5⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array after the region: the product of the two arrays the region found. -/
theorem final (c : Dev nD) : (dat4 V c).arrAt 2 cfg4.N = rowsTimes (V c main_v67) (V c main_arg9) :=
  (dat4 V c).arrAt_eq_of_cover 2 _ (fun t _ => flushed_eq V c t) cover

end Cert.KernelIdeal.Mat4

end
-- ==== Proof.Comb3.lean ====
/-
  Region 3 of the idealized kernel: the pointwise tail of a graph-convolution layer, twenty blocks of 5000 rows.

  Point t loads rows 5000·t … 5000·t + 4999 of the aggregate, of the transformed features and of the scale column,
  and the whole bias row, and writes max(agg + hw · d + b, 0) back to the same rows of the output, the scale `d`
  repeated along each row and the bias `b` along each column.  Every entry depends only on the entries of the same
  row and column, so block t of the output is block t of `combine agg hw d b`; the twenty row blocks tile the output.
-/
import proofs.«103716_j41532333752537_1_alg».proof.Proof.Gen.KernelIdeal.Frame
import proofs.«103716_j41532333752537_1_alg».proof.Proof.Spec
import Idealize.ShloMosaic.Lib.Pipeline.Value
import Idealize.ShloMosaic.Lib.ValueIdx
set_option maxRecDepth 16384

noncomputable section

namespace Cert.KernelIdeal.Comb3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

theorem hz : (![0, 0] : Fin 2 → Nat) = fun _ => 0 := funext fun a => by fin_cases a <;> rfl

/-- Within a block: the scale column's entry (p, 0). -/
abbrev bcol (j : S5000x64.Idx) : S5000x1.Idx := fun a => match a with
  | ⟨0, _⟩ => ⟨(j 0).val, (j 0).isLt⟩
  | ⟨1, _⟩ => ⟨0, Nat.one_pos⟩
/-- Within a block: the bias row's entry (0, q). -/
abbrev brow (j : S5000x64.Idx) : S1x64.Idx := fun a => match a with
  | ⟨0, _⟩ => ⟨0, Nat.one_pos⟩
  | ⟨1, _⟩ => ⟨(j 1).val, (j 1).isLt⟩

/-- The body's value at an entry: max(agg + hw · d + b, 0) of the loaded blocks' entries in the same row and column. -/
theorem pay_apply (x0 x2 : Vec Ideal S5000x64 .f32) (x4 : Vec Ideal S5000x1 .f32) (x6 : Vec Ideal S1x64 .f32) (j : S5000x64.Idx) :
    k3_pay1 (F := Ideal) x0 x2 x4 x6 j = max (x0 j + x2 j * x4 (bcol j) + x6 (brow j)) (Ideal.ofBits .f32 0x00000000#32) := by
  unfold k3_pay1
  try dsimp only
  simp only [shapeCast_self]
  have hc : broadcastTo S5000x64 x4 broadcasts_S5000x1_S5000x64 j = x4 (bcol j) :=
    broadcastTo_apply x4 broadcasts_S5000x1_S5000x64 j (bcol j) (fun a => by
      match a with
      | ⟨0, _⟩ => exact (if_neg (show ¬ S5000x1.size (0 : Fin 2) = 1 by decide)).symm
      | ⟨1, _⟩ => exact (if_pos rfl).symm)
  have hr : broadcastTo S5000x64 x6 broadcasts_S1x64_S5000x64 j = x6 (brow j) :=
    broadcastTo_apply x6 broadcasts_S1x64_S5000x64 j (brow j) (fun a => by
      match a with
      | ⟨0, _⟩ => exact (if_pos rfl).symm
      | ⟨1, _⟩ => exact (if_neg (show ¬ S1x64.size (1 : Fin 2) = 1 by decide)).symm)
  show max (x0 j + x2 j * broadcastTo S5000x64 x4 broadcasts_S5000x1_S5000x64 j + broadcastTo S5000x64 x6 broadcasts_S1x64_S5000x64 j) (Ideal.ofBits .f32 0x00000000#32) = _
  rw [hc, hr]

/-- The printed index maps over the grid: the row block of every window that moves is the point's number, every
    other block index is zero. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block is some point's. -/
theorem idx_onto : ∀ q0 : Fin 20, ∃ t : Fin cfg3.N, t.val = q0.val :=
  (by decide +kernel : ∀ q0 : Fin 20, ∃ t : Fin grid3.N, t.val = q0.val)

variable (V : (c : Dev nD) → (b : Ref sig .tc) → Buf (Elt Ideal) ((c : Thread nD τ).loc b))

/-- What point `t` writes back is block `t` of the layer's tail of the arrays the region found. -/
theorem flushed_eq (c : Dev nD) (t : Fin cfg3.N) :
    (dat3 V c).flushed 4 t = ((cfg3.win 4).blk t).view.read (Elt Ideal)
      (combine (V c main_v64) (V c main_v51) (V c main_v65) (V c main_v66)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  show k3_pay1 (F := Ideal) (iblk3 V c 0 t) (iblk3 V c 1 t) (iblk3 V c 2 t) (iblk3 V c 3 t) j
    = combine (V c main_v64) (V c main_v51) (V c main_v65) (V c main_v66) (((cfg3.win 4).blk t).view.emb j)
  refine (pay_apply (iblk3 V c 0 t) (iblk3 V c 1 t) (iblk3 V c 2 t) (iblk3 V c 3 t) j).trans ?_
  unfold combine
  have h0 : iblk3 V c 0 t j = V c main_v64 (((cfg3.win 4).blk t).view.emb j) := by
    show V c main_v64 (((cfg3.win 0).blk t).view.emb j) = V c main_v64 _
    refine congrArg (V c main_v64) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h1 : iblk3 V c 1 t j = V c main_v51 (((cfg3.win 4).blk t).view.emb j) := by
    show V c main_v51 (((cfg3.win 1).blk t).view.emb j) = V c main_v51 _
    refine congrArg (V c main_v51) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  have h2 : iblk3 V c 2 t (bcol j) = V c main_v65 (colIdx (((cfg3.win 4).blk t).view.emb j)) := by
    show V c main_v65 (((cfg3.win 2).blk t).view.emb (bcol j)) = V c main_v65 _
    refine congrArg (V c main_v65) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : iblk3 V c 3 t (brow j) = V c main_v66 (rowIdx (((cfg3.win 4).blk t).view.emb j)) := by
    show V c main_v66 (((cfg3.win 3).blk t).view.emb (brow j)) = V c main_v66 _
    refine congrArg (V c main_v66) (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  rw [h0, h1, h2, h3]

/-- An index of the output array is in point `t`'s block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v67).slice (win3_4.rect t)).set ↔ _
  rw [View.set_slice_whole, Rect.mem_set_unit]
  exact Iff.rfl

/-- The twenty row blocks tile the output: row r lies in block r / 5000. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, e8, e9⟩ := idx_facts t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region: the layer's tail of the four arrays the region found. -/
theorem final (c : Dev nD) : (dat3 V c).arrAt 4 cfg3.N = combine (V c main_v64) (V c main_v51) (V c main_v65) (V c main_v66) :=
  (dat3 V c).arrAt_eq_of_cover 4 _ (fun t _ => flushed_eq V c t) cover

end Cert.KernelIdeal.Comb3

end
-- ==== Proof.Chain2.lean ====
/-
  The second layer: the same three steps as the first, from the buffers the first layer left.
-/
import proofs.«103716_j41532333752537_1_alg».proof.Proof.Gen.KernelIdeal.Frame
import proofs.«103716_j41532333752537_1_alg».proof.Proof.Chain1
import proofs.«103716_j41532333752537_1_alg».proof.Proof.Mat4
import proofs.«103716_j41532333752537_1_alg».proof.Proof.Comb3
import Idealize.ShloMosaic.Lib.StableHlo.Run
set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-! ## Layer 2 -/

/-- The aggregate of layer 2: the host's gather, scale and scatter-add of the transformed features, the same operations as the reference's. -/
theorem w6_v64 : W6 m ρ c (Proc.devRef .tc main_v64) = Cert.ReferenceIdeal.Read.val_main_v69 (F := Ideal) a0 a1 a4 a5 a6 a7 := by
  show StableHlo.after hostOps3 (W5 m ρ c) (Proc.devRef .tc main_v64) = _
  after_results_simp
  rw [w5_v51 m ρ c, w5_v3 m ρ c, w5_v25 m ρ c, w5_v1 m ρ c]
  rfl

theorem w6_v65 : W6 m ρ c (Proc.devRef .tc main_v65) = shapeCast S100000x1 (Cert.ReferenceIdeal.Read.val_main_v26 (F := Ideal) a1) shapeCasts_S100000_S100000x1 := by
  show StableHlo.after hostOps3 (W5 m ρ c) (Proc.devRef .tc main_v65) = _
  after_results_simp
  rw [w5_v26 m ρ c]
  rfl

theorem w6_v66 : W6 m ρ c (Proc.devRef .tc main_v66) = shapeCast S1x64 a8 shapeCasts_S64_S1x64 := by
  show StableHlo.after hostOps3 (W5 m ρ c) (Proc.devRef .tc main_v66) = _
  after_results_simp
  rw [w5_arg8 m ρ c]
  rfl

theorem w6_v51 : W6 m ρ c (Proc.devRef .tc main_v51) = Cert.ReferenceIdeal.Read.val_main_v56 (F := Ideal) a0 a1 a4 a5 a6 a7 :=
  Eq.trans (by show StableHlo.after hostOps3 (W5 m ρ c) (Proc.devRef .tc main_v51) = _; after_results_simp) (w5_v51 m ρ c)

/-- Layer 2's tail: the region's output is the reference's rectified sum of the same four arrays. -/
theorem w7_v67 : W7 m ρ c (Proc.devRef .tc main_v67) = Cert.ReferenceIdeal.Read.val_main_v77 (F := Ideal) a0 a1 a4 a5 a6 a7 a8 := by
  refine (W7_arr m ρ c 4).trans ?_
  refine (Cert.KernelIdeal.Comb3.final (V6 m ρ) c).trans ?_
  show Cert.Spec.combine (W6 m ρ c (Proc.devRef .tc main_v64)) (W6 m ρ c (Proc.devRef .tc main_v51)) (W6 m ρ c (Proc.devRef .tc main_v65)) (W6 m ρ c (Proc.devRef .tc main_v66)) = _
  rw [w6_v64 m ρ c, w6_v51 m ρ c, w6_v65 m ρ c, w6_v66 m ρ c]
  exact Cert.ReferenceIdeal.Forms.tail_eq _ _ _ _ _ _

theorem w7_arg9 : W7 m ρ c (Proc.devRef .tc main_arg9) = a9 :=
  (Eq.trans (W7_of_ne m ρ c main_arg9 (by decide)) (Eq.trans (by show StableHlo.after hostOps3 (W5 m ρ c) (Proc.devRef .tc main_arg9) = _; after_results_simp) (Eq.trans (W5_of_ne m ρ c main_arg9 (by decide)) (Eq.trans (W4_of_ne m ρ c main_arg9 (by decide)) (Eq.trans (by show StableHlo.after hostOps1 (W2 m ρ c) (Proc.devRef .tc main_arg9) = _; after_results_simp) (Eq.trans (W2_of_ne m ρ c main_arg9 (by decide)) (by show StableHlo.after hostOps0 (W0 m ρ c) (Proc.devRef .tc main_arg9) = _; after_results_simp)))))))

/-- The next layer's transform: the region's output is the reference's product of the same two arrays. -/
theorem w8_v68 : W8 m ρ c (Proc.devRef .tc main_v68) = Cert.ReferenceIdeal.Read.val_main_v78 (F := Ideal) a0 a1 a4 a5 a6 a7 a8 a9 := by
  refine (W8_arr m ρ c 2).trans ?_
  refine (Cert.KernelIdeal.Mat4.final (V7 m ρ) c).trans ?_
  show Cert.Spec.rowsTimes (W7 m ρ c (Proc.devRef .tc main_v67)) (W7 m ρ c (Proc.devRef .tc main_arg9)) = _
  rw [w7_v67 m ρ c, w7_arg9 m ρ c]
  exact (Cert.ReferenceIdeal.Forms.dot_eq _ _).symm

theorem w8_v1 : W8 m ρ c (Proc.devRef .tc main_v1) = Cert.ReferenceIdeal.Read.val_main_v1 (F := Ideal) a1 :=
  ((Eq.trans (W8_of_ne m ρ c main_v1 (by decide)) (Eq.trans (W7_of_ne m ρ c main_v1 (by decide)) (by show StableHlo.after hostOps3 (W5 m ρ c) (Proc.devRef .tc main_v1) = _; after_results_simp)))).trans (w5_v1 m ρ c)

theorem w8_v3 : W8 m ρ c (Proc.devRef .tc main_v3) = Cert.ReferenceIdeal.Read.val_main_v3 (F := Ideal) a1 :=
  ((Eq.trans (W8_of_ne m ρ c main_v3 (by decide)) (Eq.trans (W7_of_ne m ρ c main_v3 (by decide)) (by show StableHlo.after hostOps3 (W5 m ρ c) (Proc.devRef .tc main_v3) = _; after_results_simp)))).trans (w5_v3 m ρ c)

theorem w8_v25 : W8 m ρ c (Proc.devRef .tc main_v25) = Cert.ReferenceIdeal.Read.val_main_v25 (F := Ideal) a1 :=
  ((Eq.trans (W8_of_ne m ρ c main_v25 (by decide)) (Eq.trans (W7_of_ne m ρ c main_v25 (by decide)) (by show StableHlo.after hostOps3 (W5 m ρ c) (Proc.devRef .tc main_v25) = _; after_results_simp)))).trans (w5_v25 m ρ c)

theorem w8_v26 : W8 m ρ c (Proc.devRef .tc main_v26) = Cert.ReferenceIdeal.Read.val_main_v26 (F := Ideal) a1 :=
  ((Eq.trans (W8_of_ne m ρ c main_v26 (by decide)) (Eq.trans (W7_of_ne m ρ c main_v26 (by decide)) (by show StableHlo.after hostOps3 (W5 m ρ c) (Proc.devRef .tc main_v26) = _; after_results_simp)))).trans (w5_v26 m ρ c)

theorem w8_arg10 : W8 m ρ c (Proc.devRef .tc main_arg10) = a10 :=
  (Eq.trans (W8_of_ne m ρ c main_arg10 (by decide)) (Eq.trans (W7_of_ne m ρ c main_arg10 (by decide)) (Eq.trans (by show StableHlo.after hostOps3 (W5 m ρ c) (Proc.devRef .tc main_arg10) = _; after_results_simp) (Eq.trans (W5_of_ne m ρ c main_arg10 (by decide)) (Eq.trans (W4_of_ne m ρ c main_arg10 (by decide)) (Eq.trans (by show StableHlo.after hostOps1 (W2 m ρ c) (Proc.devRef .tc main_arg10) = _; after_results_simp) (Eq.trans (W2_of_ne m ρ c main_arg10 (by decide)) (by show StableHlo.after hostOps0 (W0 m ρ c) (Proc.devRef .tc main_arg10) = _; after_results_simp))))))))

end Cert.KernelIdeal.Chain

end
-- ==== Proof.Comb5.lean ====
/-
  Region 5 of the idealized kernel: the pointwise tail of a graph-convolution layer, twenty blocks of 5000 rows.

  Point t loads rows 5000·t … 5000·t + 4999 of the aggregate, of the transformed features and of the scale column,
  and the whole bias row, and writes max(agg + hw · d + b, 0) back to the same rows of the output, the scale `d`
  repeated along each row and the bias `b` along each column.  Every entry depends only on the entries of the same
  row and column, so block t of the output is block t of `combine agg hw d b`; the twenty row blocks tile the output.
-/
import proofs.«103716_j41532333752537_1_alg».proof.Proof.Gen.KernelIdeal.Frame
import proofs.«103716_j41532333752537_1_alg».proof.Proof.Spec
import Idealize.ShloMosaic.Lib.Pipeline.Value
import Idealize.ShloMosaic.Lib.ValueIdx
set_option maxRecDepth 16384

noncomputable section

namespace Cert.KernelIdeal.Comb5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

theorem hz : (![0, 0] : Fin 2 → Nat) = fun _ => 0 := funext fun a => by fin_cases a <;> rfl

/-- Within a block: the scale column's entry (p, 0). -/
abbrev bcol (j : S5000x64.Idx) : S5000x1.Idx := fun a => match a with
  | ⟨0, _⟩ => ⟨(j 0).val, (j 0).isLt⟩
  | ⟨1, _⟩ => ⟨0, Nat.one_pos⟩
/-- Within a block: the bias row's entry (0, q). -/
abbrev brow (j : S5000x64.Idx) : S1x64.Idx := fun a => match a with
  | ⟨0, _⟩ => ⟨0, Nat.one_pos⟩
  | ⟨1, _⟩ => ⟨(j 1).val, (j 1).isLt⟩

/-- The body's value at an entry: max(agg + hw · d + b, 0) of the loaded blocks' entries in the same row and column. -/
theorem pay_apply (x0 x2 : Vec Ideal S5000x64 .f32) (x4 : Vec Ideal S5000x1 .f32) (x6 : Vec Ideal S1x64 .f32) (j : S5000x64.Idx) :
    k5_pay1 (F := Ideal) x0 x2 x4 x6 j = max (x0 j + x2 j * x4 (bcol j) + x6 (brow j)) (Ideal.ofBits .f32 0x00000000#32) := by
  unfold k5_pay1
  try dsimp only
  simp only [shapeCast_self]
  have hc : broadcastTo S5000x64 x4 broadcasts_S5000x1_S5000x64 j = x4 (bcol j) :=
    broadcastTo_apply x4 broadcasts_S5000x1_S5000x64 j (bcol j) (fun a => by
      match a with
      | ⟨0, _⟩ => exact (if_neg (show ¬ S5000x1.size (0 : Fin 2) = 1 by decide)).symm
      | ⟨1, _⟩ => exact (if_pos rfl).symm)
  have hr : broadcastTo S5000x64 x6 broadcasts_S1x64_S5000x64 j = x6 (brow j) :=
    broadcastTo_apply x6 broadcasts_S1x64_S5000x64 j (brow j) (fun a => by
      match a with
      | ⟨0, _⟩ => exact (if_pos rfl).symm
      | ⟨1, _⟩ => exact (if_neg (show ¬ S1x64.size (1 : Fin 2) = 1 by decide)).symm)
  show max (x0 j + x2 j * broadcastTo S5000x64 x4 broadcasts_S5000x1_S5000x64 j + broadcastTo S5000x64 x6 broadcasts_S1x64_S5000x64 j) (Ideal.ofBits .f32 0x00000000#32) = _
  rw [hc, hr]

/-- The printed index maps over the grid: the row block of every window that moves is the point's number, every
    other block index is zero. -/
theorem idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every row block is some point's. -/
theorem idx_onto : ∀ q0 : Fin 20, ∃ t : Fin cfg5.N, t.val = q0.val :=
  (by decide +kernel : ∀ q0 : Fin 20, ∃ t : Fin grid5.N, t.val = q0.val)

variable (V : (c : Dev nD) → (b : Ref sig .tc) → Buf (Elt Ideal) ((c : Thread nD τ).loc b))

/-- What point `t` writes back is block `t` of the layer's tail of the arrays the region found. -/
theorem flushed_eq (c : Dev nD) (t : Fin cfg5.N) :
    (dat5 V c).flushed 4 t = ((cfg5.win 4).blk t).view.read (Elt Ideal)
      (combine (V c main_v81) (V c main_v68) (V c main_v82) (V c main_v83)) := by
  show (cfg5.win 4).cut (grid5.coords t) ((dat5 V c).after 4 t) = _
  rw [after5_4]
  unfold out5_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  show k5_pay1 (F := Ideal) (iblk5 V c 0 t) (iblk5 V c 1 t) (iblk5 V c 2 t) (iblk5 V c 3 t) j
    = combine (V c main_v81) (V c main_v68) (V c main_v82) (V c main_v83) (((cfg5.win 4).blk t).view.emb j)
  refine (pay_apply (iblk5 V c 0 t) (iblk5 V c 1 t) (iblk5 V c 2 t) (iblk5 V c 3 t) j).trans ?_
  unfold combine
  have h0 : iblk5 V c 0 t j = V c main_v81 (((cfg5.win 4).blk t).view.emb j) := by
    show V c main_v81 (((cfg5.win 0).blk t).view.emb j) = V c main_v81 _
    refine congrArg (V c main_v81) (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h1 : iblk5 V c 1 t j = V c main_v68 (((cfg5.win 4).blk t).view.emb j) := by
    show V c main_v68 (((cfg5.win 1).blk t).view.emb j) = V c main_v68 _
    refine congrArg (V c main_v68) (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  have h2 : iblk5 V c 2 t (bcol j) = V c main_v82 (colIdx (((cfg5.win 4).blk t).view.emb j)) := by
    show V c main_v82 (((cfg5.win 2).blk t).view.emb (bcol j)) = V c main_v82 _
    refine congrArg (V c main_v82) (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : iblk5 V c 3 t (brow j) = V c main_v83 (rowIdx (((cfg5.win 4).blk t).view.emb j)) := by
    show V c main_v83 (((cfg5.win 3).blk t).view.emb (brow j)) = V c main_v83 _
    refine congrArg (V c main_v83) (funext fun a => Fin.ext ?_)
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega
  rw [h0, h1, h2, h3]

/-- An index of the output array is in point `t`'s block iff each coordinate is in the block's range on its axis. -/
theorem mem_blk (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v84).slice (win5_4.rect t)).set ↔ _
  rw [View.set_slice_whole, Rect.mem_set_unit]
  exact Iff.rfl

/-- The twenty row blocks tile the output: row r lies in block r / 5000. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, e8, e9⟩ := idx_facts t
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The output array after the region: the layer's tail of the four arrays the region found. -/
theorem final (c : Dev nD) : (dat5 V c).arrAt 4 cfg5.N = combine (V c main_v81) (V c main_v68) (V c main_v82) (V c main_v83) :=
  (dat5 V c).arrAt_eq_of_cover 4 _ (fun t _ => flushed_eq V c t) cover

end Cert.KernelIdeal.Comb5

end
-- ==== Proof.SpecMlp.lean ====
/-
  The graph-level head both programs end with, over the extended reals, for `n` graphs.

  Each graph's 128 joined features are its 64 pooled embedding entries followed by the 64 entries
  conc · wc(l) + bc(l) of its concentration's embedding; the hidden layer is max(joined · Wf1 + bf1, 0) and
  the output hidden · Wf2 + bf2, every product a plain sum over the contracted axis.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Feature `l` of graph `g`: the pooled embedding for l < 64, the concentration's embedding after. -/
def joined {n : Nat} (ge : (⟨2, ![n, 64]⟩ : Shape).Idx → EReal) (conc : (⟨2, ![n, 1]⟩ : Shape).Idx → EReal)
    (wc bc : (⟨2, ![1, 64]⟩ : Shape).Idx → EReal) (g : Fin n) (l : Fin 128) : EReal :=
  if h : l.val < 64 then ge (ix2 g (⟨l.val, h⟩ : Fin 64))
  else conc (ix2 g (0 : Fin 1)) * wc (ix2 (0 : Fin 1) (⟨l.val - 64, by have := l.isLt; omega⟩ : Fin 64))
        + bc (ix2 (0 : Fin 1) (⟨l.val - 64, by have := l.isLt; omega⟩ : Fin 64))

/-- Hidden unit `k` of graph `g`: max(Σₗ joined(g, l) · Wf1(l, k) + bf1(k), 0). -/
def hidden {n : Nat} (ge : (⟨2, ![n, 64]⟩ : Shape).Idx → EReal) (conc : (⟨2, ![n, 1]⟩ : Shape).Idx → EReal)
    (wc bc : (⟨2, ![1, 64]⟩ : Shape).Idx → EReal) (wf1 : (⟨2, ![128, 64]⟩ : Shape).Idx → EReal)
    (bf1 : (⟨2, ![1, 64]⟩ : Shape).Idx → EReal) (g : Fin n) (k : Fin 64) : EReal :=
  max ((∑ l : Fin 128, joined ge conc wc bc g l * wf1 (ix2 l k)) + bf1 (ix2 (0 : Fin 1) k)) (Ideal.ofBits .f32 0x00000000#32)

/-- Output `o` of graph `g`: Σₖ hidden(g, k) · Wf2(k, o) + bf2(o). -/
def mlp {n : Nat} (ge : (⟨2, ![n, 64]⟩ : Shape).Idx → EReal) (conc : (⟨2, ![n, 1]⟩ : Shape).Idx → EReal)
    (wc bc : (⟨2, ![1, 64]⟩ : Shape).Idx → EReal) (wf1 : (⟨2, ![128, 64]⟩ : Shape).Idx → EReal)
    (bf1 : (⟨2, ![1, 64]⟩ : Shape).Idx → EReal) (wf2 : (⟨2, ![64, 15]⟩ : Shape).Idx → EReal)
    (bf2 : (⟨2, ![1, 15]⟩ : Shape).Idx → EReal) : (⟨2, ![n, 15]⟩ : Shape).Idx → EReal :=
  fun i => (∑ k : Fin 64, hidden ge conc wc bc wf1 bf1 (i 0) k * wf2 (ix2 k (i 1))) + bf2 (ix2 (0 : Fin 1) (i 1))

/-- The head of graph `g` depends on the graph-indexed operands only through row `g`: two sets of operands that agree
    on their rows `g` and `g'` and share the parameters give the same outputs. -/
theorem mlp_congr {n n' : Nat} (ge : (⟨2, ![n, 64]⟩ : Shape).Idx → EReal) (conc : (⟨2, ![n, 1]⟩ : Shape).Idx → EReal)
    (ge' : (⟨2, ![n', 64]⟩ : Shape).Idx → EReal) (conc' : (⟨2, ![n', 1]⟩ : Shape).Idx → EReal)
    (wc bc wc' bc' : (⟨2, ![1, 64]⟩ : Shape).Idx → EReal) (wf1 wf1' : (⟨2, ![128, 64]⟩ : Shape).Idx → EReal)
    (bf1 bf1' : (⟨2, ![1, 64]⟩ : Shape).Idx → EReal) (wf2 wf2' : (⟨2, ![64, 15]⟩ : Shape).Idx → EReal)
    (bf2 bf2' : (⟨2, ![1, 15]⟩ : Shape).Idx → EReal) (g : Fin n) (g' : Fin n') (o : Fin 15)
    (hge : ∀ l : Fin 64, ge (ix2 g l) = ge' (ix2 g' l)) (hconc : conc (ix2 g (0 : Fin 1)) = conc' (ix2 g' (0 : Fin 1)))
    (hwc : wc = wc') (hbc : bc = bc') (hwf1 : wf1 = wf1') (hbf1 : bf1 = bf1') (hwf2 : wf2 = wf2') (hbf2 : bf2 = bf2') :
    mlp ge conc wc bc wf1 bf1 wf2 bf2 (ix2 g o) = mlp ge' conc' wc' bc' wf1' bf1' wf2' bf2' (ix2 g' o) := by
  subst hwc hbc hwf1 hbf1 hwf2 hbf2
  unfold mlp Cert.Spec.hidden
  refine congrArg (fun z : EReal => z + bf2 (ix2 (0 : Fin 1) o)) ?_
  refine Finset.sum_congr rfl fun k _ => ?_
  refine congrArg (fun z : EReal => z * wf2 (ix2 k o)) ?_
  refine congrArg (fun z : EReal => max z (Ideal.ofBits .f32 0x00000000#32)) ?_
  refine congrArg (fun z : EReal => z + bf1 (ix2 (0 : Fin 1) k)) ?_
  refine Finset.sum_congr rfl fun l _ => ?_
  refine congrArg (fun z : EReal => z * wf1 (ix2 l k)) ?_
  show joined ge conc wc bc g l = joined ge' conc' wc bc g' l
  unfold joined
  by_cases h : l.val < 64
  · rw [dif_pos h, dif_pos h]; exact hge _
  · rw [dif_neg h, dif_neg h, hconc]

end Cert.Spec

end
-- ==== Proof.Mlp6.lean ====
/-
  Region 6 of the idealized kernel, the body: the graph-level head on a block of 1024 graphs.

  The body joins the block's pooled embeddings with the concentration's embedding conc · wc + bc along the feature axis,
  multiplies by Wf1 into a zero accumulator, adds bf1, takes the maximum with zero, multiplies by Wf2 into a zero
  accumulator and adds bf2; the roundings to bf16 on the way into the products are the identity on extended reals.
  Read at an entry (p, o) that is `Spec.mlp` of the eight loaded blocks for 1024 graphs.
-/
import proofs.«103716_j41532333752537_1_alg».proof.Proof.Gen.KernelIdeal.Frame
import proofs.«103716_j41532333752537_1_alg».proof.Proof.SpecMlp
import Idealize.ShloMosaic.Lib.Pipeline.Value
import Idealize.ShloMosaic.Lib.ValueIdx
import Idealize.ShloMosaic.PureOps.Ideal.Laws
set_option maxRecDepth 16384

noncomputable section

namespace Cert.KernelIdeal.Mlp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

theorem d1_lhs0 (i : S1024x64.Idx) (q : (dot_S1024x128_S128x64_S1024x64_1_0_0_1_n_n).contr.Idx) : ((dot_S1024x128_S128x64_S1024x64_1_0_0_1_n_n).lhsIdx i q 0).val = (i 0).val := by
  unfold DotDims.lhsIdx
  rw [dif_neg (show ¬(0 : Fin S1024x128.rank) ∈ (dot_S1024x128_S128x64_S1024x64_1_0_0_1_n_n).lhsBatch by decide), dif_pos (show (0 : Fin S1024x128.rank) ∈ (dot_S1024x128_S128x64_S1024x64_1_0_0_1_n_n).lhsNonContracting by decide)]
  rfl
theorem d1_lhs1 (i : S1024x64.Idx) (q : (dot_S1024x128_S128x64_S1024x64_1_0_0_1_n_n).contr.Idx) : ((dot_S1024x128_S128x64_S1024x64_1_0_0_1_n_n).lhsIdx i q 1).val = (q ⟨0, by decide⟩).val :=
  (dot_S1024x128_S128x64_S1024x64_1_0_0_1_n_n).lhsIdx_val_of_single rfl i q
theorem d1_rhs0 (i : S1024x64.Idx) (q : (dot_S1024x128_S128x64_S1024x64_1_0_0_1_n_n).contr.Idx) : ((dot_S1024x128_S128x64_S1024x64_1_0_0_1_n_n).rhsIdx i q 0).val = (q ⟨0, by decide⟩).val :=
  (dot_S1024x128_S128x64_S1024x64_1_0_0_1_n_n).rhsIdx_val_of_single rfl i q
theorem d1_rhs1 (i : S1024x64.Idx) (q : (dot_S1024x128_S128x64_S1024x64_1_0_0_1_n_n).contr.Idx) : ((dot_S1024x128_S128x64_S1024x64_1_0_0_1_n_n).rhsIdx i q 1).val = (i 1).val := by
  unfold DotDims.rhsIdx
  rw [dif_neg (show ¬(1 : Fin S128x64.rank) ∈ (dot_S1024x128_S128x64_S1024x64_1_0_0_1_n_n).rhsBatch by decide), dif_pos (show (1 : Fin S128x64.rank) ∈ (dot_S1024x128_S128x64_S1024x64_1_0_0_1_n_n).rhsNonContracting by decide)]
  rfl

theorem d2_lhs0 (i : S1024x15.Idx) (q : (dot_S1024x64_S64x15_S1024x15_1_0_0_1_n_n).contr.Idx) : ((dot_S1024x64_S64x15_S1024x15_1_0_0_1_n_n).lhsIdx i q 0).val = (i 0).val := by
  unfold DotDims.lhsIdx
  rw [dif_neg (show ¬(0 : Fin S1024x64.rank) ∈ (dot_S1024x64_S64x15_S1024x15_1_0_0_1_n_n).lhsBatch by decide), dif_pos (show (0 : Fin S1024x64.rank) ∈ (dot_S1024x64_S64x15_S1024x15_1_0_0_1_n_n).lhsNonContracting by decide)]
  rfl
theorem d2_lhs1 (i : S1024x15.Idx) (q : (dot_S1024x64_S64x15_S1024x15_1_0_0_1_n_n).contr.Idx) : ((dot_S1024x64_S64x15_S1024x15_1_0_0_1_n_n).lhsIdx i q 1).val = (q ⟨0, by decide⟩).val :=
  (dot_S1024x64_S64x15_S1024x15_1_0_0_1_n_n).lhsIdx_val_of_single rfl i q
theorem d2_rhs0 (i : S1024x15.Idx) (q : (dot_S1024x64_S64x15_S1024x15_1_0_0_1_n_n).contr.Idx) : ((dot_S1024x64_S64x15_S1024x15_1_0_0_1_n_n).rhsIdx i q 0).val = (q ⟨0, by decide⟩).val :=
  (dot_S1024x64_S64x15_S1024x15_1_0_0_1_n_n).rhsIdx_val_of_single rfl i q
theorem d2_rhs1 (i : S1024x15.Idx) (q : (dot_S1024x64_S64x15_S1024x15_1_0_0_1_n_n).contr.Idx) : ((dot_S1024x64_S64x15_S1024x15_1_0_0_1_n_n).rhsIdx i q 1).val = (i 1).val := by
  unfold DotDims.rhsIdx
  rw [dif_neg (show ¬(1 : Fin S64x15.rank) ∈ (dot_S1024x64_S64x15_S1024x15_1_0_0_1_n_n).rhsBatch by decide), dif_pos (show (1 : Fin S64x15.rank) ∈ (dot_S1024x64_S64x15_S1024x15_1_0_0_1_n_n).rhsNonContracting by decide)]
  rfl

/-- A block product into a zero accumulator at entry (p, q): the plain sum over the contracted axis. -/
theorem mm1_apply (A : FVec Ideal S1024x128 .bf16) (B : FVec Ideal S128x64 .bf16) (p : Fin 1024) (q : Fin 64) :
    FloatOps.matmul dot_S1024x128_S128x64_S1024x64_1_0_0_1_n_n none A B (constant S1024x64 .f32 0x00000000#32) (ix2 p q)
      = ∑ l : Fin 128, (A (ix2 p l) : EReal) * (B (ix2 l q) : EReal) := by
  refine (Ideal.matmul_constant_zero_apply dot_S1024x128_S128x64_S1024x64_1_0_0_1_n_n none A B (ix2 p q)).trans ?_
  rw [← Equiv.sum_comp (ValueIdx.contrEquiv1 dot_S1024x128_S128x64_S1024x64_1_0_0_1_n_n 128 rfl rfl).symm]
  refine Finset.sum_congr rfl fun l _ => ?_
  have hk := ValueIdx.contrEquiv1_symm_val dot_S1024x128_S128x64_S1024x64_1_0_0_1_n_n 128 rfl rfl l
  have el : (dot_S1024x128_S128x64_S1024x64_1_0_0_1_n_n).lhsIdx (ix2 p q) ((ValueIdx.contrEquiv1 dot_S1024x128_S128x64_S1024x64_1_0_0_1_n_n 128 rfl rfl).symm l) = ix2 p l := funext fun a => Fin.ext (by
    match a with
    | ⟨0, _⟩ => exact d1_lhs0 _ _
    | ⟨1, _⟩ => exact (d1_lhs1 _ _).trans hk)
  have er : (dot_S1024x128_S128x64_S1024x64_1_0_0_1_n_n).rhsIdx (ix2 p q) ((ValueIdx.contrEquiv1 dot_S1024x128_S128x64_S1024x64_1_0_0_1_n_n 128 rfl rfl).symm l) = ix2 l q := funext fun a => Fin.ext (by
    match a with
    | ⟨0, _⟩ => exact (d1_rhs0 _ _).trans hk
    | ⟨1, _⟩ => exact d1_rhs1 _ _)
  rw [el, er]

/-- A block product into a zero accumulator at entry (p, q): the plain sum over the contracted axis. -/
theorem mm2_apply (A : FVec Ideal S1024x64 .bf16) (B : FVec Ideal S64x15 .bf16) (p : Fin 1024) (q : Fin 15) :
    FloatOps.matmul dot_S1024x64_S64x15_S1024x15_1_0_0_1_n_n none A B (constant S1024x15 .f32 0x00000000#32) (ix2 p q)
      = ∑ l : Fin 64, (A (ix2 p l) : EReal) * (B (ix2 l q) : EReal) := by
  refine (Ideal.matmul_constant_zero_apply dot_S1024x64_S64x15_S1024x15_1_0_0_1_n_n none A B (ix2 p q)).trans ?_
  rw [← Equiv.sum_comp (ValueIdx.contrEquiv1 dot_S1024x64_S64x15_S1024x15_1_0_0_1_n_n 64 rfl rfl).symm]
  refine Finset.sum_congr rfl fun l _ => ?_
  have hk := ValueIdx.contrEquiv1_symm_val dot_S1024x64_S64x15_S1024x15_1_0_0_1_n_n 64 rfl rfl l
  have el : (dot_S1024x64_S64x15_S1024x15_1_0_0_1_n_n).lhsIdx (ix2 p q) ((ValueIdx.contrEquiv1 dot_S1024x64_S64x15_S1024x15_1_0_0_1_n_n 64 rfl rfl).symm l) = ix2 p l := funext fun a => Fin.ext (by
    match a with
    | ⟨0, _⟩ => exact d2_lhs0 _ _
    | ⟨1, _⟩ => exact (d2_lhs1 _ _).trans hk)
  have er : (dot_S1024x64_S64x15_S1024x15_1_0_0_1_n_n).rhsIdx (ix2 p q) ((ValueIdx.contrEquiv1 dot_S1024x64_S64x15_S1024x15_1_0_0_1_n_n 64 rfl rfl).symm l) = ix2 l q := funext fun a => Fin.ext (by
    match a with
    | ⟨0, _⟩ => exact (d2_rhs0 _ _).trans hk
    | ⟨1, _⟩ => exact d2_rhs1 _ _)
  rw [el, er]

/-- A column repeated along rows reads the column at the entry's row. -/
theorem bc_col (x : Vec Ideal S1024x1 .f32) (p : Fin 1024) (k : Fin 64) :
    broadcastTo S1024x64 x broadcasts_S1024x1_S1024x64 (ix2 p k) = x (ix2 p (0 : Fin 1)) :=
  broadcastTo_apply x broadcasts_S1024x1_S1024x64 (ix2 p k) (ix2 p (0 : Fin 1)) (fun a => by
    match a with
    | ⟨0, _⟩ => exact (if_neg (show ¬ S1024x1.size (0 : Fin 2) = 1 by decide)).symm
    | ⟨1, _⟩ => exact (if_pos rfl).symm)
/-- A row of 64 repeated along columns reads the row at the entry's column. -/
theorem bc_row64 (x : Vec Ideal S1x64 .f32) (p : Fin 1024) (k : Fin 64) :
    broadcastTo S1024x64 x broadcasts_S1x64_S1024x64 (ix2 p k) = x (ix2 (0 : Fin 1) k) :=
  broadcastTo_apply x broadcasts_S1x64_S1024x64 (ix2 p k) (ix2 (0 : Fin 1) k) (fun a => by
    match a with
    | ⟨0, _⟩ => exact (if_pos rfl).symm
    | ⟨1, _⟩ => exact (if_neg (show ¬ S1x64.size (1 : Fin 2) = 1 by decide)).symm)
/-- A row of 15 repeated along columns reads the row at the entry's column. -/
theorem bc_row15 (x : Vec Ideal S1x15 .f32) (p : Fin 1024) (o : Fin 15) :
    broadcastTo S1024x15 x broadcasts_S1x15_S1024x15 (ix2 p o) = x (ix2 (0 : Fin 1) o) :=
  broadcastTo_apply x broadcasts_S1x15_S1024x15 (ix2 p o) (ix2 (0 : Fin 1) o) (fun a => by
    match a with
    | ⟨0, _⟩ => exact (if_pos rfl).symm
    | ⟨1, _⟩ => exact (if_neg (show ¬ S1x15.size (1 : Fin 2) = 1 by decide)).symm)

/-- Two 1024×64 arrays joined along the feature axis: the first for l < 64, the second, 64 columns on, after. -/
theorem cat_apply (a b : Vec Ideal S1024x64 .f32) (p : Fin 1024) (l : Fin 128) :
    concatenate S1024x128 1 [⟨S1024x64, a⟩, ⟨S1024x64, b⟩] concatenates_S1024x64_S1024x64_S1024x128_d1 (ix2 p l)
      = if h : l.val < 64 then a (ix2 p (⟨l.val, h⟩ : Fin 64)) else b (ix2 p (⟨l.val - 64, by have := l.isLt; omega⟩ : Fin 64)) := by
  by_cases h : l.val < 64
  · rw [dif_pos h]
    exact concatenate_pair_apply_left 1 a b concatenates_S1024x64_S1024x64_S1024x128_d1 (ix2 p l) rfl (ix2 p (⟨l.val, h⟩ : Fin 64))
      (fun bb => by
        match bb with
        | ⟨0, _⟩ => rfl
        | ⟨1, _⟩ => rfl)
  · rw [dif_neg h]
    exact concatenate_pair_apply_right 1 a b concatenates_S1024x64_S1024x64_S1024x128_d1 (ix2 p l) rfl rfl
      (ix2 p (⟨l.val - 64, by have := l.isLt; omega⟩ : Fin 64))
      (fun bb hb => by
        match bb with
        | ⟨0, _⟩ => rfl
        | ⟨1, _⟩ => exact absurd rfl hb)
      (by show (l.val - 64) + 64 = l.val; omega)

/-- The body's value at entry (p, o) is the head of the eight loaded blocks. -/
theorem pay_apply (x0 : Vec Ideal S1024x64 .f32) (x1 : Vec Ideal S1024x1 .f32) (x2 x3 : Vec Ideal S1x64 .f32)
    (x4 : Vec Ideal S128x64 .f32) (x5 : Vec Ideal S1x64 .f32) (x6 : Vec Ideal S64x15 .f32) (x7 : Vec Ideal S1x15 .f32)
    (p : Fin 1024) (o : Fin 15) :
    k6_pay1 (F := Ideal) x0 x1 x2 x3 x4 x5 x6 x7 (ix2 p o) = mlp (n := 1024) x0 x1 x2 x3 x4 x5 x6 x7 (ix2 p o) := by
  unfold k6_pay1
  try dsimp only
  repeat rw [shapeCast_self]
  simp only [matmul]
  unfold Cert.Spec.mlp Cert.Spec.hidden
  refine congrArg₂ (· + ·) ?_ (bc_row15 x7 p o)
  refine (mm2_apply _ _ p o).trans ?_
  refine Finset.sum_congr rfl fun k _ => ?_
  refine congrArg (fun z : EReal => z * x6 (ix2 k o)) ?_
  refine congrArg (fun z : EReal => max z (Ideal.ofBits .f32 0x00000000#32)) ?_
  refine congrArg₂ (· + ·) ?_ (bc_row64 x5 p k)
  refine (mm1_apply _ _ p k).trans ?_
  refine Finset.sum_congr rfl fun l _ => ?_
  refine congrArg (fun z : EReal => z * x4 (ix2 l k)) ?_
  refine (cat_apply _ _ p l).trans ?_
  unfold joined
  by_cases h : l.val < 64
  · rw [dif_pos h, dif_pos h]
  · rw [dif_neg h, dif_neg h]
    refine congrArg₂ (· + ·) (congrArg₂ (· * ·) (bc_col x1 p _) (bc_row64 x2 p _)) (bc_row64 x3 p _)

theorem hz : (![0, 0] : Fin 2 → Nat) = fun _ => 0 := funext fun a => by fin_cases a <;> rfl

/-- The printed index maps over the grid: the row block of the three windows that move is the point's number, every
    other block index is zero. -/
theorem idx_facts : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0 :=
  (by decide +kernel : ∀ t : Fin grid6.N, _)

/-- Every row block is some point's. -/
theorem idx_onto : ∀ q0 : Fin 4, ∃ t : Fin cfg6.N, t.val = q0.val :=
  (by decide +kernel : ∀ q0 : Fin 4, ∃ t : Fin grid6.N, t.val = q0.val)

variable (V : (c : Dev nD) → (b : Ref sig .tc) → Buf (Elt Ideal) ((c : Thread nD τ).loc b))

/-- Window 2 is the whole of its array at every point. -/
theorem whole2 (c : Dev nD) (t : Fin cfg6.N) : iblk6 V c 2 t = V c main_arg11 := by
  obtain ⟨-, -, -, -, e4, e5, e6, e7, e8, e9, e10, e11, e12, e13, e14, e15, -, -⟩ := idx_facts t
  funext y
  show V c main_arg11 (((cfg6.win 2).blk t).view.emb y) = V c main_arg11 y
  refine congrArg (V c main_arg11) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Window 3 is the whole of its array at every point. -/
theorem whole3 (c : Dev nD) (t : Fin cfg6.N) : iblk6 V c 3 t = V c main_v98 := by
  obtain ⟨-, -, -, -, e4, e5, e6, e7, e8, e9, e10, e11, e12, e13, e14, e15, -, -⟩ := idx_facts t
  funext y
  show V c main_v98 (((cfg6.win 3).blk t).view.emb y) = V c main_v98 y
  refine congrArg (V c main_v98) (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-- Window 4 is the whole of its array at every point. -/
theorem whole4 (c : Dev nD) (t : Fin cfg6.N) : iblk6 V c 4 t = V c main_arg13 := by
  obtain ⟨-, -, -, -, e4, e5, e6, e7, e8, e9, e10, e11, e12, e13, e14, e15, -, -⟩ := idx_facts t
  funext y
  show V c main_arg13 (((cfg6.win 4).blk t).view.emb y) = V c main_arg13 y
  refine congrArg (V c main_arg13) (funext fun a => Fin.ext ?_)
  match a with
  | ⟨0, _⟩ => show win6_4.index t (0 : Fin 2) * 128 + 1 * (y 0).val = (y 0).val; omega
  | ⟨1, _⟩ => show win6_4.index t (1 : Fin 2) * 64 + 1 * (y 1).val = (y 1).val; omega

/-- Window 5 is the whole of its array at every point. -/
theorem whole5 (c : Dev nD) (t : Fin cfg6.N) : iblk6 V c 5 t = V c main_v99 := by
  obtain ⟨-, -, -, -, e4, e5, e6, e7, e8, e9, e10, e11, e12, e13, e14, e15, -, -⟩ := idx_facts t
  funext y
  show V c main_v99 (((cfg6.win 5).blk t).view.emb y) = V c main_v99 y
  refine congrArg (V c main_v99) (funext fun a => Fin.ext ?_)
  match a with
  | ⟨0, _⟩ => show win6_5.index t (0 : Fin 2) * 1 + 1 * (y 0).val = (y 0).val; omega
  | ⟨1, _⟩ => show win6_5.index t (1 : Fin 2) * 64 + 1 * (y 1).val = (y 1).val; omega

/-- Window 6 is the whole of its array at every point. -/
theorem whole6 (c : Dev nD) (t : Fin cfg6.N) : iblk6 V c 6 t = V c main_arg15 := by
  obtain ⟨-, -, -, -, e4, e5, e6, e7, e8, e9, e10, e11, e12, e13, e14, e15, -, -⟩ := idx_facts t
  funext y
  show V c main_arg15 (((cfg6.win 6).blk t).view.emb y) = V c main_arg15 y
  refine congrArg (V c main_arg15) (funext fun a => Fin.ext ?_)
  match a with
  | ⟨0, _⟩ => show win6_6.index t (0 : Fin 2) * 64 + 1 * (y 0).val = (y 0).val; omega
  | ⟨1, _⟩ => show win6_6.index t (1 : Fin 2) * 15 + 1 * (y 1).val = (y 1).val; omega

/-- Window 7 is the whole of its array at every point. -/
theorem whole7 (c : Dev nD) (t : Fin cfg6.N) : iblk6 V c 7 t = V c main_v100 := by
  obtain ⟨-, -, -, -, e4, e5, e6, e7, e8, e9, e10, e11, e12, e13, e14, e15, -, -⟩ := idx_facts t
  funext y
  show V c main_v100 (((cfg6.win 7).blk t).view.emb y) = V c main_v100 y
  refine congrArg (V c main_v100) (funext fun a => Fin.ext ?_)
  match a with
  | ⟨0, _⟩ => show win6_7.index t (0 : Fin 2) * 1 + 1 * (y 0).val = (y 0).val; omega
  | ⟨1, _⟩ => show win6_7.index t (1 : Fin 2) * 15 + 1 * (y 1).val = (y 1).val; omega

/-- What point `t` writes back is block `t` of the head of the arrays the region found. -/
theorem flushed_eq (c : Dev nD) (t : Fin cfg6.N) :
    (dat6 V c).flushed 8 t = ((cfg6.win 8).blk t).view.read (Elt Ideal)
      (mlp (n := 4096) (V c main_v96) (V c main_v97) (V c main_arg11) (V c main_v98) (V c main_arg13) (V c main_v99) (V c main_arg15) (V c main_v100)) := by
  show (cfg6.win 8).cut (grid6.coords t) ((dat6 V c).after 8 t) = _
  rw [after6_8]
  unfold out6_8
  rw [View.canon_unit_zero hz]
  simp only [View.ld_unit_zero (S := S1024x64) hz, View.ld_unit_zero (S := S1024x1) hz, View.ld_unit_zero (S := S1x64) hz,
    View.ld_unit_zero (S := S128x64) hz, View.ld_unit_zero (S := S64x15) hz, View.ld_unit_zero (S := S1x15) hz]
  obtain ⟨e0, e1, e2, e3, -, -, -, -, -, -, -, -, -, -, -, -, e16, e17⟩ := idx_facts t
  have ht : t.val < 4 := lt_of_lt_of_eq t.isLt N_6
  funext j
  obtain ⟨p, o, rfl⟩ : ∃ (p : Fin 1024) (o : Fin 15), j = ix2 p o := ⟨j 0, j 1, eq_ix2 j⟩
  show k6_pay1 (F := Ideal) (iblk6 V c 0 t) (iblk6 V c 1 t) (iblk6 V c 2 t) (iblk6 V c 3 t) (iblk6 V c 4 t) (iblk6 V c 5 t) (iblk6 V c 6 t) (iblk6 V c 7 t) (ix2 p o)
    = mlp (n := 4096) (V c main_v96) (V c main_v97) (V c main_arg11) (V c main_v98) (V c main_arg13) (V c main_v99) (V c main_arg15) (V c main_v100) (((cfg6.win 8).blk t).view.emb (ix2 p o))
  refine (pay_apply (iblk6 V c 0 t) (iblk6 V c 1 t) (iblk6 V c 2 t) (iblk6 V c 3 t) (iblk6 V c 4 t) (iblk6 V c 5 t) (iblk6 V c 6 t) (iblk6 V c 7 t) p o).trans ?_
  have hp : p.val < 1024 := p.isLt
  have E : ((cfg6.win 8).blk t).view.emb (ix2 p o) = ix2 (⟨t.val * 1024 + p.val, by omega⟩ : Fin 4096) o := funext fun a => Fin.ext (by
    match a with
    | ⟨0, _⟩ => show win6_8.index t (0 : Fin 2) * 1024 + 1 * p.val = t.val * 1024 + p.val; omega
    | ⟨1, _⟩ => show win6_8.index t (1 : Fin 2) * 15 + 1 * o.val = o.val; omega)
  rw [E]
  refine mlp_congr (n := 1024) (n' := 4096) _ _ _ _ _ _ _ _ _ _ _ _ _ _ _ _ p _ o ?_ ?_ (whole2 V c t) (whole3 V c t) (whole4 V c t) (whole5 V c t) (whole6 V c t) (whole7 V c t)
  · intro l
    show V c main_v96 (((cfg6.win 0).blk t).view.emb (ix2 p l)) = V c main_v96 _
    refine congrArg (V c main_v96) (funext fun a => Fin.ext ?_)
    match a with
    | ⟨0, _⟩ => show win6_0.index t (0 : Fin 2) * 1024 + 1 * p.val = t.val * 1024 + p.val; omega
    | ⟨1, _⟩ => show win6_0.index t (1 : Fin 2) * 64 + 1 * l.val = l.val; omega
  · show V c main_v97 (((cfg6.win 1).blk t).view.emb (ix2 p (0 : Fin 1))) = V c main_v97 _
    refine congrArg (V c main_v97) (funext fun a => Fin.ext ?_)
    match a with
    | ⟨0, _⟩ => show win6_1.index t (0 : Fin 2) * 1024 + 1 * p.val = t.val * 1024 + p.val; omega
    | ⟨1, _⟩ => show win6_1.index t (1 : Fin 2) * 1 + 1 * 0 = 0; omega

/-- An index of the output array is in point `t`'s block iff each coordinate is in the block's range on its axis. -/
theorem mem_blk (t : Fin cfg6.N) (i : S4096x15.Idx) :
    i ∈ ((cfg6.win 8).blk t).view.set ↔ ∀ a : Fin 2, win6_8.index t a * S1024x15.size a ≤ (i a).val ∧ (i a).val < win6_8.index t a * S1024x15.size a + S1024x15.size a := by
  show i ∈ ((View.whole main_v101).slice (win6_8.rect t)).set ↔ _
  rw [View.set_slice_whole, Rect.mem_set_unit]
  exact Iff.rfl

/-- The four row blocks tile the output: graph g lies in block g / 1024. -/
theorem cover (i : S4096x15.Idx) :
    ∃ t : Fin cfg6.N, (cfg6.win 8).flush t = true ∧ i ∈ ((cfg6.win 8).blk t).view.set := by
  have hi0 : (i 0).val < 4096 := (i 0).isLt
  have hi1 : (i 1).val < 15 := (i 1).isLt
  obtain ⟨t, ht⟩ := idx_onto ⟨(i 0).val / 1024, by omega⟩
  have ht' : t.val = (i 0).val / 1024 := ht
  obtain ⟨-, -, -, -, -, -, -, -, -, -, -, -, -, -, -, -, e16, e17⟩ := idx_facts t
  refine ⟨t, flush6_8 t, ?_⟩
  rw [mem_blk]
  intro a
  match a with
  | ⟨0, _⟩ => show win6_8.index t (0 : Fin 2) * 1024 ≤ (i 0).val ∧ (i 0).val < win6_8.index t (0 : Fin 2) * 1024 + 1024; omega
  | ⟨1, _⟩ => show win6_8.index t (1 : Fin 2) * 15 ≤ (i 1).val ∧ (i 1).val < win6_8.index t (1 : Fin 2) * 15 + 15; omega

/-- The output array after the region: the head of the eight arrays the region found. -/
theorem final (c : Dev nD) : (dat6 V c).arrAt 8 cfg6.N
    = mlp (n := 4096) (V c main_v96) (V c main_v97) (V c main_arg11) (V c main_v98) (V c main_arg13) (V c main_v99) (V c main_arg15) (V c main_v100) :=
  (dat6 V c).arrAt_eq_of_cover 8 _ (fun t _ => flushed_eq V c t) cover

end Cert.KernelIdeal.Mlp6

end
-- ==== Proof.RefMlp.lean ====
/-
  The reference's graph-level head, read at an entry, is `Spec.mlp` for 4096 graphs.

  Each of its three `dot_general`s is the plain sum over its contracted axis; the one contracting an axis of
  length one is a single product, the concentration times its weight; the concatenation reads the pooled
  embedding for the first 64 features and the concentration's embedding after; each bias is broadcast along
  the graphs; the reshapes of the kernel's operands read the same entries as the reference's broadcasts.
-/
import proofs.«103716_j41532333752537_1_alg».proof.Proof.Gen.ReferenceIdeal.Read
import proofs.«103716_j41532333752537_1_alg».proof.Proof.SpecMlp
import Idealize.ShloMosaic.Lib.Pipeline.Value
import Idealize.ShloMosaic.Lib.ValueIdx
import Idealize.ShloMosaic.PureOps.Ideal.Laws

set_option maxRecDepth 16384

noncomputable section

namespace Cert.ReferenceIdeal.Forms

open Cert.ReferenceIdeal Cert.ReferenceIdeal.Gen Cert.ReferenceIdeal.Read Idealize.ShloMosaic Idealize.ShloMosaic.TcCoe Cert.Spec Idealize.ShloMosaic.ValueIdx

/-- The concentration's embedding at (g, l'): conc(g) · wc(l') + bc(l'). -/
theorem concEmb_apply (x3 : (⟨S4096, .f32⟩ : BufTy).Contents (Elt Ideal)) (x11 : (⟨S1x64, .f32⟩ : BufTy).Contents (Elt Ideal))
    (x12 : (⟨S64, .f32⟩ : BufTy).Contents (Elt Ideal)) (h3 : S4096.ShapeCasts S4096x1) (h12 : S64.ShapeCasts S1x64)
    (g : Fin 4096) (l : Fin 64) :
    val_main_v116 (F := Ideal) x3 x11 x12 (ix2 g l)
      = shapeCast S4096x1 x3 h3 (ix2 g (0 : Fin 1)) * x11 (ix2 (0 : Fin 1) l) + shapeCast S1x64 x12 h12 (ix2 (0 : Fin 1) l) := by
  rw [val_main_v116_apply, val_main_v115_apply, val_main_v114_apply, val_main_v113_apply, Fin.sum_univ_one, val_main_v112_apply]
  have e1 : shapeCast S4096x1 x3 h3 (ix2 g (0 : Fin 1)) = x3 (idx_main_v112 (lidx_main_v113 (ix2 g l) 0)) :=
    shapeCast_apply x3 h3 (ix2 g (0 : Fin 1)) _
      (by rewrite [Shape.rowMajor_val_two, Shape.rowMajor_val_one]; show g.val = g.val * 1 + 0; omega)
  have e2 : shapeCast S1x64 x12 h12 (ix2 (0 : Fin 1) l) = x12 (idx_main_v114 (idx_main_v115 (ix2 g l))) :=
    shapeCast_apply x12 h12 (ix2 (0 : Fin 1) l) _
      (by rewrite [Shape.rowMajor_val_two, Shape.rowMajor_val_one]; show l.val = 0 * 64 + l.val; omega)
  have e3 : ridx_main_v113 (ix2 g l) 0 = ix2 (0 : Fin 1) l := funext fun a => by
    match a with
    | ⟨0, _⟩ => rfl
    | ⟨1, _⟩ => rfl
  rw [e1, e2, e3]
  rfl

/-- The reference's joined features at (g, l). -/
theorem joined_apply (x0 : (⟨S100000, .i32⟩ : BufTy).Contents (Elt Ideal)) (x1 : (⟨S2x3200000, .i32⟩ : BufTy).Contents (Elt Ideal)) (x2 : (⟨S100000, .i32⟩ : BufTy).Contents (Elt Ideal)) (x3 : (⟨S4096, .f32⟩ : BufTy).Contents (Elt Ideal)) (x4 : (⟨S10x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S1x64, .f32⟩ : BufTy).Contents (Elt Ideal)) (x12 : (⟨S64, .f32⟩ : BufTy).Contents (Elt Ideal)) (x13 : (⟨S128x64, .f32⟩ : BufTy).Contents (Elt Ideal)) (x14 : (⟨S64, .f32⟩ : BufTy).Contents (Elt Ideal)) (x15 : (⟨S64x15, .f32⟩ : BufTy).Contents (Elt Ideal)) (x16 : (⟨S15, .f32⟩ : BufTy).Contents (Elt Ideal))
    (h3 : S4096.ShapeCasts S4096x1) (h12 : S64.ShapeCasts S1x64) (g : Fin 4096) (l : Fin 128) :
    val_main_v117 (F := Ideal) x0 x1 x2 x3 x4 x5 x6 x7 x8 x9 x10 x11 x12 (ix2 g l)
      = joined (n := 4096) (val_main_v111 (F := Ideal) x0 x1 x2 x4 x5 x6 x7 x8 x9 x10) (shapeCast S4096x1 x3 h3) x11 (shapeCast S1x64 x12 h12) g l := by
  unfold val_main_v117 joined
  by_cases h : l.val < 64
  · rw [dif_pos h]
    exact concatenate_pair_apply_left 1 _ _ concatenates_S4096x64_S4096x64_S4096x128_d1 (ix2 g l) rfl (ix2 g (⟨l.val, h⟩ : Fin 64))
      (fun bb => by
        match bb with
        | ⟨0, _⟩ => rfl
        | ⟨1, _⟩ => rfl)
  · rw [dif_neg h]
    refine (concatenate_pair_apply_right 1 _ _ concatenates_S4096x64_S4096x64_S4096x128_d1 (ix2 g l) rfl rfl
      (ix2 g (⟨l.val - 64, by have := l.isLt; omega⟩ : Fin 64))
      (fun bb hb => by
        match bb with
        | ⟨0, _⟩ => rfl
        | ⟨1, _⟩ => exact absurd rfl hb)
      (by show (l.val - 64) + 64 = l.val; omega)).trans ?_
    exact concEmb_apply x3 x11 x12 h3 h12 g _

/-- The reference's hidden layer at (g, k). -/
theorem hidden_apply (x0 : (⟨S100000, .i32⟩ : BufTy).Contents (Elt Ideal)) (x1 : (⟨S2x3200000, .i32⟩ : BufTy).Contents (Elt Ideal)) (x2 : (⟨S100000, .i32⟩ : BufTy).Contents (Elt Ideal)) (x3 : (⟨S4096, .f32⟩ : BufTy).Contents (Elt Ideal)) (x4 : (⟨S10x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S1x64, .f32⟩ : BufTy).Contents (Elt Ideal)) (x12 : (⟨S64, .f32⟩ : BufTy).Contents (Elt Ideal)) (x13 : (⟨S128x64, .f32⟩ : BufTy).Contents (Elt Ideal)) (x14 : (⟨S64, .f32⟩ : BufTy).Contents (Elt Ideal)) (x15 : (⟨S64x15, .f32⟩ : BufTy).Contents (Elt Ideal)) (x16 : (⟨S15, .f32⟩ : BufTy).Contents (Elt Ideal))
    (h3 : S4096.ShapeCasts S4096x1) (h12 : S64.ShapeCasts S1x64) (h14 : S64.ShapeCasts S1x64) (g : Fin 4096) (k : Fin 64) :
    val_main_v122 (F := Ideal) x0 x1 x2 x3 x4 x5 x6 x7 x8 x9 x10 x11 x12 x13 x14 (ix2 g k)
      = Cert.Spec.hidden (n := 4096) (val_main_v111 (F := Ideal) x0 x1 x2 x4 x5 x6 x7 x8 x9 x10) (shapeCast S4096x1 x3 h3) x11 (shapeCast S1x64 x12 h12) x13 (shapeCast S1x64 x14 h14) g k := by
  rw [val_main_v122_apply, val_main_v121_apply, val_main_v120_apply, val_main_v119_apply, val_main_v118_apply,
    val_main_call3_v0_apply, val_main_call3_cst_apply]
  unfold Cert.Spec.hidden
  have e2 : shapeCast S1x64 x14 h14 (ix2 (0 : Fin 1) k) = x14 (idx_main_v119 (idx_main_v120 (ix2 g k))) :=
    shapeCast_apply x14 h14 (ix2 (0 : Fin 1) k) _
      (by rewrite [Shape.rowMajor_val_two, Shape.rowMajor_val_one]; show k.val = 0 * 64 + k.val; omega)
  rw [e2]
  refine congrArg (fun z : EReal => max z (Ideal.ofBits .f32 0x00000000#32)) ?_
  refine congrArg (fun z : EReal => z + x14 (idx_main_v119 (idx_main_v120 (ix2 g k)))) ?_
  refine Finset.sum_congr rfl fun l _ => ?_
  have eL : lidx_main_v118 (ix2 g k) l = ix2 g l := funext fun a => by
    match a with
    | ⟨0, _⟩ => rfl
    | ⟨1, _⟩ => rfl
  have eR : ridx_main_v118 (ix2 g k) l = ix2 l k := funext fun a => by
    match a with
    | ⟨0, _⟩ => rfl
    | ⟨1, _⟩ => rfl
  rw [eL, eR, joined_apply x0 x1 x2 x3 x4 x5 x6 x7 x8 x9 x10 x11 x12 x13 x14 x15 x16 h3 h12 g l]

/-- The reference's result is the head of the pooled embeddings, the concentrations and the head's parameters. -/
theorem mlp_eq (x0 : (⟨S100000, .i32⟩ : BufTy).Contents (Elt Ideal)) (x1 : (⟨S2x3200000, .i32⟩ : BufTy).Contents (Elt Ideal)) (x2 : (⟨S100000, .i32⟩ : BufTy).Contents (Elt Ideal)) (x3 : (⟨S4096, .f32⟩ : BufTy).Contents (Elt Ideal)) (x4 : (⟨S10x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S1x64, .f32⟩ : BufTy).Contents (Elt Ideal)) (x12 : (⟨S64, .f32⟩ : BufTy).Contents (Elt Ideal)) (x13 : (⟨S128x64, .f32⟩ : BufTy).Contents (Elt Ideal)) (x14 : (⟨S64, .f32⟩ : BufTy).Contents (Elt Ideal)) (x15 : (⟨S64x15, .f32⟩ : BufTy).Contents (Elt Ideal)) (x16 : (⟨S15, .f32⟩ : BufTy).Contents (Elt Ideal))
    (h3 : S4096.ShapeCasts S4096x1) (h12 : S64.ShapeCasts S1x64) (h14 : S64.ShapeCasts S1x64) (h16 : S15.ShapeCasts S1x15) :
    val_main_v126 (F := Ideal) x0 x1 x2 x3 x4 x5 x6 x7 x8 x9 x10 x11 x12 x13 x14 x15 x16
      = mlp (n := 4096) (val_main_v111 (F := Ideal) x0 x1 x2 x4 x5 x6 x7 x8 x9 x10) (shapeCast S4096x1 x3 h3) x11 (shapeCast S1x64 x12 h12) x13
          (shapeCast S1x64 x14 h14) x15 (shapeCast S1x15 x16 h16) := by
  funext i
  obtain ⟨g, o, rfl⟩ : ∃ (g : Fin 4096) (o : Fin 15), i = ix2 g o := ⟨i 0, i 1, eq_ix2 i⟩
  rw [val_main_v126_apply, val_main_v125_apply, val_main_v124_apply, val_main_v123_apply]
  unfold mlp
  have e2 : shapeCast S1x15 x16 h16 (ix2 (0 : Fin 1) o) = x16 (idx_main_v124 (idx_main_v125 (ix2 g o))) :=
    shapeCast_apply x16 h16 (ix2 (0 : Fin 1) o) _
      (by rewrite [Shape.rowMajor_val_two, Shape.rowMajor_val_one]; show o.val = 0 * 15 + o.val; omega)
  show (∑ k : Fin 64, _) + _ = (∑ k : Fin 64, _) + shapeCast S1x15 x16 h16 (ix2 (0 : Fin 1) o)
  rw [e2]
  refine congrArg (fun z : EReal => z + x16 (idx_main_v124 (idx_main_v125 (ix2 g o)))) ?_
  refine Finset.sum_congr rfl fun k _ => ?_
  have eL : lidx_main_v123 (ix2 g o) k = ix2 g k := funext fun a => by
    match a with
    | ⟨0, _⟩ => rfl
    | ⟨1, _⟩ => rfl
  have eR : ridx_main_v123 (ix2 g o) k = ix2 k o := funext fun a => by
    match a with
    | ⟨0, _⟩ => rfl
    | ⟨1, _⟩ => rfl
  show val_main_v122 (F := Ideal) x0 x1 x2 x3 x4 x5 x6 x7 x8 x9 x10 x11 x12 x13 x14 (lidx_main_v123 (ix2 g o) k) * x15 (ridx_main_v123 (ix2 g o) k)
    = Cert.Spec.hidden (n := 4096) (val_main_v111 (F := Ideal) x0 x1 x2 x4 x5 x6 x7 x8 x9 x10) (shapeCast S4096x1 x3 h3) x11 (shapeCast S1x64 x12 h12) x13 (shapeCast S1x64 x14 h14) g k * x15 (ix2 k o)
  rw [eL, eR, hidden_apply x0 x1 x2 x3 x4 x5 x6 x7 x8 x9 x10 x11 x12 x13 x14 x15 x16 h3 h12 h14 g k]

end Cert.ReferenceIdeal.Forms

end
-- ==== Proof.Chain3.lean ====
/-
  The third layer and the graph-level head.

  After the third tail the host pools the node features per graph — a scatter-add over the graph ids divided by the
  clamped counts, the reference's own operations — and reshapes the concentrations and the three biases; the last
  region leaves `mlp` of its eight arrays, which is the reference's result.
-/
import proofs.«103716_j41532333752537_1_alg».proof.Proof.Gen.KernelIdeal.Frame
import proofs.«103716_j41532333752537_1_alg».proof.Proof.Chain2
import proofs.«103716_j41532333752537_1_alg».proof.Proof.Comb5
import proofs.«103716_j41532333752537_1_alg».proof.Proof.Mlp6
import proofs.«103716_j41532333752537_1_alg».proof.Proof.RefMlp
import Idealize.ShloMosaic.Lib.StableHlo.Run
set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)

/-! ## Layer 3 -/

/-- The aggregate of layer 3: the host's gather, scale and scatter-add of the transformed features, the same operations as the reference's. -/
theorem w9_v81 : W9 m ρ c (Proc.devRef .tc main_v81) = Cert.ReferenceIdeal.Read.val_main_v91 (F := Ideal) a0 a1 a4 a5 a6 a7 a8 a9 := by
  show StableHlo.after hostOps5 (W8 m ρ c) (Proc.devRef .tc main_v81) = _
  after_results_simp
  rw [w8_v68 m ρ c, w8_v3 m ρ c, w8_v25 m ρ c, w8_v1 m ρ c]
  rfl

theorem w9_v82 : W9 m ρ c (Proc.devRef .tc main_v82) = shapeCast S100000x1 (Cert.ReferenceIdeal.Read.val_main_v26 (F := Ideal) a1) shapeCasts_S100000_S100000x1 := by
  show StableHlo.after hostOps5 (W8 m ρ c) (Proc.devRef .tc main_v82) = _
  after_results_simp
  rw [w8_v26 m ρ c]
  rfl

theorem w9_v83 : W9 m ρ c (Proc.devRef .tc main_v83) = shapeCast S1x64 a10 shapeCasts_S64_S1x64 := by
  show StableHlo.after hostOps5 (W8 m ρ c) (Proc.devRef .tc main_v83) = _
  after_results_simp
  rw [w8_arg10 m ρ c]
  rfl

theorem w9_v68 : W9 m ρ c (Proc.devRef .tc main_v68) = Cert.ReferenceIdeal.Read.val_main_v78 (F := Ideal) a0 a1 a4 a5 a6 a7 a8 a9 :=
  Eq.trans (by show StableHlo.after hostOps5 (W8 m ρ c) (Proc.devRef .tc main_v68) = _; after_results_simp) (w8_v68 m ρ c)

/-- Layer 3's tail: the region's output is the reference's rectified sum of the same four arrays. -/
theorem w10_v84 : W10 m ρ c (Proc.devRef .tc main_v84) = Cert.ReferenceIdeal.Read.val_main_v99 (F := Ideal) a0 a1 a4 a5 a6 a7 a8 a9 a10 := by
  refine (W10_arr m ρ c 4).trans ?_
  refine (Cert.KernelIdeal.Comb5.final (V9 m ρ) c).trans ?_
  show Cert.Spec.combine (W9 m ρ c (Proc.devRef .tc main_v81)) (W9 m ρ c (Proc.devRef .tc main_v68)) (W9 m ρ c (Proc.devRef .tc main_v82)) (W9 m ρ c (Proc.devRef .tc main_v83)) = _
  rw [w9_v81 m ρ c, w9_v68 m ρ c, w9_v82 m ρ c, w9_v83 m ρ c]
  exact Cert.ReferenceIdeal.Forms.tail_eq _ _ _ _ _ _

/-! ## The head -/

theorem w10_arg2 : W10 m ρ c (Proc.devRef .tc main_arg2) = a2 :=
  (Eq.trans (W10_of_ne m ρ c main_arg2 (by decide)) (Eq.trans (by show StableHlo.after hostOps5 (W8 m ρ c) (Proc.devRef .tc main_arg2) = _; after_results_simp) (Eq.trans (W8_of_ne m ρ c main_arg2 (by decide)) (Eq.trans (W7_of_ne m ρ c main_arg2 (by decide)) (Eq.trans (by show StableHlo.after hostOps3 (W5 m ρ c) (Proc.devRef .tc main_arg2) = _; after_results_simp) (Eq.trans (W5_of_ne m ρ c main_arg2 (by decide)) (Eq.trans (W4_of_ne m ρ c main_arg2 (by decide)) (Eq.trans (by show StableHlo.after hostOps1 (W2 m ρ c) (Proc.devRef .tc main_arg2) = _; after_results_simp) (Eq.trans (W2_of_ne m ρ c main_arg2 (by decide)) (by show StableHlo.after hostOps0 (W0 m ρ c) (Proc.devRef .tc main_arg2) = _; after_results_simp))))))))))

/-- The pooled embeddings: the host's scatter-add over the graph ids divided by the clamped counts, the reference's operations. -/
theorem w11_v96 : W11 m ρ c (Proc.devRef .tc main_v96) = Cert.ReferenceIdeal.Read.val_main_v111 (F := Ideal) a0 a1 a2 a4 a5 a6 a7 a8 a9 a10 := by
  show StableHlo.after hostOps6 (W10 m ρ c) (Proc.devRef .tc main_v96) = _
  after_results_simp
  rw [w10_v84 m ρ c, w10_arg2 m ρ c]
  rfl

theorem w10_arg3 : W10 m ρ c (Proc.devRef .tc main_arg3) = a3 :=
  (Eq.trans (W10_of_ne m ρ c main_arg3 (by decide)) (Eq.trans (by show StableHlo.after hostOps5 (W8 m ρ c) (Proc.devRef .tc main_arg3) = _; after_results_simp) (Eq.trans (W8_of_ne m ρ c main_arg3 (by decide)) (Eq.trans (W7_of_ne m ρ c main_arg3 (by decide)) (Eq.trans (by show StableHlo.after hostOps3 (W5 m ρ c) (Proc.devRef .tc main_arg3) = _; after_results_simp) (Eq.trans (W5_of_ne m ρ c main_arg3 (by decide)) (Eq.trans (W4_of_ne m ρ c main_arg3 (by decide)) (Eq.trans (by show StableHlo.after hostOps1 (W2 m ρ c) (Proc.devRef .tc main_arg3) = _; after_results_simp) (Eq.trans (W2_of_ne m ρ c main_arg3 (by decide)) (by show StableHlo.after hostOps0 (W0 m ρ c) (Proc.devRef .tc main_arg3) = _; after_results_simp))))))))))

theorem w11_v97 : W11 m ρ c (Proc.devRef .tc main_v97) = shapeCast S4096x1 a3 shapeCasts_S4096_S4096x1 := by
  show StableHlo.after hostOps6 (W10 m ρ c) (Proc.devRef .tc main_v97) = _
  after_results_simp
  rw [w10_arg3 m ρ c]
  rfl

theorem w10_arg12 : W10 m ρ c (Proc.devRef .tc main_arg12) = a12 :=
  (Eq.trans (W10_of_ne m ρ c main_arg12 (by decide)) (Eq.trans (by show StableHlo.after hostOps5 (W8 m ρ c) (Proc.devRef .tc main_arg12) = _; after_results_simp) (Eq.trans (W8_of_ne m ρ c main_arg12 (by decide)) (Eq.trans (W7_of_ne m ρ c main_arg12 (by decide)) (Eq.trans (by show StableHlo.after hostOps3 (W5 m ρ c) (Proc.devRef .tc main_arg12) = _; after_results_simp) (Eq.trans (W5_of_ne m ρ c main_arg12 (by decide)) (Eq.trans (W4_of_ne m ρ c main_arg12 (by decide)) (Eq.trans (by show StableHlo.after hostOps1 (W2 m ρ c) (Proc.devRef .tc main_arg12) = _; after_results_simp) (Eq.trans (W2_of_ne m ρ c main_arg12 (by decide)) (by show StableHlo.after hostOps0 (W0 m ρ c) (Proc.devRef .tc main_arg12) = _; after_results_simp))))))))))

theorem w11_v98 : W11 m ρ c (Proc.devRef .tc main_v98) = shapeCast S1x64 a12 shapeCasts_S64_S1x64 := by
  show StableHlo.after hostOps6 (W10 m ρ c) (Proc.devRef .tc main_v98) = _
  after_results_simp
  rw [w10_arg12 m ρ c]
  rfl

theorem w10_arg14 : W10 m ρ c (Proc.devRef .tc main_arg14) = a14 :=
  (Eq.trans (W10_of_ne m ρ c main_arg14 (by decide)) (Eq.trans (by show StableHlo.after hostOps5 (W8 m ρ c) (Proc.devRef .tc main_arg14) = _; after_results_simp) (Eq.trans (W8_of_ne m ρ c main_arg14 (by decide)) (Eq.trans (W7_of_ne m ρ c main_arg14 (by decide)) (Eq.trans (by show StableHlo.after hostOps3 (W5 m ρ c) (Proc.devRef .tc main_arg14) = _; after_results_simp) (Eq.trans (W5_of_ne m ρ c main_arg14 (by decide)) (Eq.trans (W4_of_ne m ρ c main_arg14 (by decide)) (Eq.trans (by show StableHlo.after hostOps1 (W2 m ρ c) (Proc.devRef .tc main_arg14) = _; after_results_simp) (Eq.trans (W2_of_ne m ρ c main_arg14 (by decide)) (by show StableHlo.after hostOps0 (W0 m ρ c) (Proc.devRef .tc main_arg14) = _; after_results_simp))))))))))

theorem w11_v99 : W11 m ρ c (Proc.devRef .tc main_v99) = shapeCast S1x64 a14 shapeCasts_S64_S1x64 := by
  show StableHlo.after hostOps6 (W10 m ρ c) (Proc.devRef .tc main_v99) = _
  after_results_simp
  rw [w10_arg14 m ρ c]
  rfl

theorem w10_arg16 : W10 m ρ c (Proc.devRef .tc main_arg16) = a16 :=
  (Eq.trans (W10_of_ne m ρ c main_arg16 (by decide)) (Eq.trans (by show StableHlo.after hostOps5 (W8 m ρ c) (Proc.devRef .tc main_arg16) = _; after_results_simp) (Eq.trans (W8_of_ne m ρ c main_arg16 (by decide)) (Eq.trans (W7_of_ne m ρ c main_arg16 (by decide)) (Eq.trans (by show StableHlo.after hostOps3 (W5 m ρ c) (Proc.devRef .tc main_arg16) = _; after_results_simp) (Eq.trans (W5_of_ne m ρ c main_arg16 (by decide)) (Eq.trans (W4_of_ne m ρ c main_arg16 (by decide)) (Eq.trans (by show StableHlo.after hostOps1 (W2 m ρ c) (Proc.devRef .tc main_arg16) = _; after_results_simp) (Eq.trans (W2_of_ne m ρ c main_arg16 (by decide)) (by show StableHlo.after hostOps0 (W0 m ρ c) (Proc.devRef .tc main_arg16) = _; after_results_simp))))))))))

theorem w11_v100 : W11 m ρ c (Proc.devRef .tc main_v100) = shapeCast S1x15 a16 shapeCasts_S15_S1x15 := by
  show StableHlo.after hostOps6 (W10 m ρ c) (Proc.devRef .tc main_v100) = _
  after_results_simp
  rw [w10_arg16 m ρ c]
  rfl

theorem w11_arg11 : W11 m ρ c (Proc.devRef .tc main_arg11) = a11 :=
  (Eq.trans (by show StableHlo.after hostOps6 (W10 m ρ c) (Proc.devRef .tc main_arg11) = _; after_results_simp) (Eq.trans (W10_of_ne m ρ c main_arg11 (by decide)) (Eq.trans (by show StableHlo.after hostOps5 (W8 m ρ c) (Proc.devRef .tc main_arg11) = _; after_results_simp) (Eq.trans (W8_of_ne m ρ c main_arg11 (by decide)) (Eq.trans (W7_of_ne m ρ c main_arg11 (by decide)) (Eq.trans (by show StableHlo.after hostOps3 (W5 m ρ c) (Proc.devRef .tc main_arg11) = _; after_results_simp) (Eq.trans (W5_of_ne m ρ c main_arg11 (by decide)) (Eq.trans (W4_of_ne m ρ c main_arg11 (by decide)) (Eq.trans (by show StableHlo.after hostOps1 (W2 m ρ c) (Proc.devRef .tc main_arg11) = _; after_results_simp) (Eq.trans (W2_of_ne m ρ c main_arg11 (by decide)) (by show StableHlo.after hostOps0 (W0 m ρ c) (Proc.devRef .tc main_arg11) = _; after_results_simp)))))))))))

theorem w11_arg13 : W11 m ρ c (Proc.devRef .tc main_arg13) = a13 :=
  (Eq.trans (by show StableHlo.after hostOps6 (W10 m ρ c) (Proc.devRef .tc main_arg13) = _; after_results_simp) (Eq.trans (W10_of_ne m ρ c main_arg13 (by decide)) (Eq.trans (by show StableHlo.after hostOps5 (W8 m ρ c) (Proc.devRef .tc main_arg13) = _; after_results_simp) (Eq.trans (W8_of_ne m ρ c main_arg13 (by decide)) (Eq.trans (W7_of_ne m ρ c main_arg13 (by decide)) (Eq.trans (by show StableHlo.after hostOps3 (W5 m ρ c) (Proc.devRef .tc main_arg13) = _; after_results_simp) (Eq.trans (W5_of_ne m ρ c main_arg13 (by decide)) (Eq.trans (W4_of_ne m ρ c main_arg13 (by decide)) (Eq.trans (by show StableHlo.after hostOps1 (W2 m ρ c) (Proc.devRef .tc main_arg13) = _; after_results_simp) (Eq.trans (W2_of_ne m ρ c main_arg13 (by decide)) (by show StableHlo.after hostOps0 (W0 m ρ c) (Proc.devRef .tc main_arg13) = _; after_results_simp)))))))))))

theorem w11_arg15 : W11 m ρ c (Proc.devRef .tc main_arg15) = a15 :=
  (Eq.trans (by show StableHlo.after hostOps6 (W10 m ρ c) (Proc.devRef .tc main_arg15) = _; after_results_simp) (Eq.trans (W10_of_ne m ρ c main_arg15 (by decide)) (Eq.trans (by show StableHlo.after hostOps5 (W8 m ρ c) (Proc.devRef .tc main_arg15) = _; after_results_simp) (Eq.trans (W8_of_ne m ρ c main_arg15 (by decide)) (Eq.trans (W7_of_ne m ρ c main_arg15 (by decide)) (Eq.trans (by show StableHlo.after hostOps3 (W5 m ρ c) (Proc.devRef .tc main_arg15) = _; after_results_simp) (Eq.trans (W5_of_ne m ρ c main_arg15 (by decide)) (Eq.trans (W4_of_ne m ρ c main_arg15 (by decide)) (Eq.trans (by show StableHlo.after hostOps1 (W2 m ρ c) (Proc.devRef .tc main_arg15) = _; after_results_simp) (Eq.trans (W2_of_ne m ρ c main_arg15 (by decide)) (by show StableHlo.after hostOps0 (W0 m ρ c) (Proc.devRef .tc main_arg15) = _; after_results_simp)))))))))))

/-- The idealized kernel's result buffer holds the reference's result of the same arguments. -/
theorem w12_v101 : W12 m ρ c (Proc.devRef .tc main_v101) = Cert.ReferenceIdeal.Read.val_main_v126 (F := Ideal) a0 a1 a2 a3 a4 a5 a6 a7 a8 a9 a10 a11 a12 a13 a14 a15 a16 := by
  refine (W12_arr m ρ c 8).trans ?_
  refine (Cert.KernelIdeal.Mlp6.final (V11 m ρ) c).trans ?_
  show Cert.Spec.mlp (n := 4096) (W11 m ρ c (Proc.devRef .tc main_v96)) (W11 m ρ c (Proc.devRef .tc main_v97)) (W11 m ρ c (Proc.devRef .tc main_arg11)) (W11 m ρ c (Proc.devRef .tc main_v98))
    (W11 m ρ c (Proc.devRef .tc main_arg13)) (W11 m ρ c (Proc.devRef .tc main_v99)) (W11 m ρ c (Proc.devRef .tc main_arg15)) (W11 m ρ c (Proc.devRef .tc main_v100)) = _
  rw [w11_v96 m ρ c, w11_v97 m ρ c, w11_arg11 m ρ c, w11_v98 m ρ c, w11_arg13 m ρ c, w11_v99 m ρ c, w11_arg15 m ρ c, w11_v100 m ρ c]
  exact (Cert.ReferenceIdeal.Forms.mlp_eq a0 a1 a2 a3 a4 a5 a6 a7 a8 a9 a10 a11 a12 a13 a14 a15 a16 _ _ _ _).symm

end Cert.KernelIdeal.Chain

end
-- ==== Proof.lean ====
/-
  A three-layer graph convolution with mean pooling and a two-layer head: the kernel against its jnp reference.

  Both programs run the same host code for everything that follows the graph's edges: the degrees, the edge
  normalisation, each layer's gather, scale and scatter-add, the pooling.  The kernel hands seven dense pieces to
  pipelined regions: three products h · W (row blocks of 5000 nodes against the whole 64×64 weight), three pointwise
  tails max(agg + hW · d + b, 0), and the head on blocks of 1024 graphs.  Over the extended reals a block product into
  a zero accumulator is the plain sum over the contracted axis, which is what the reference's dot_general is; the
  tail and the head are entry by entry the reference's operations; the row blocks tile each output.  So after every
  region and every stretch of host operations the kernel's buffers hold the reference's stages of the same
  arguments, and the result buffer holds the reference's result.  No law that needs finiteness is used.

  The ideal pass rewrote nothing, so `preserves` is trivial; the three frames are the segment-by-segment runs.
-/
import proofs.«103716_j41532333752537_1_alg».proof.Defs
import proofs.«103716_j41532333752537_1_alg».proof.Proof.Gen.Kernel
import proofs.«103716_j41532333752537_1_alg».proof.Proof.Gen.Kernel.Skeleton
import proofs.«103716_j41532333752537_1_alg».proof.Proof.Gen.Kernel.Launch
import proofs.«103716_j41532333752537_1_alg».proof.Proof.Gen.Kernel.Points
import proofs.«103716_j41532333752537_1_alg».proof.Proof.Gen.Kernel.Frame
import proofs.«103716_j41532333752537_1_alg».proof.Proof.Gen.KernelIdeal
import proofs.«103716_j41532333752537_1_alg».proof.Proof.Gen.KernelIdeal.Skeleton
import proofs.«103716_j41532333752537_1_alg».proof.Proof.Gen.KernelIdeal.Launch
import proofs.«103716_j41532333752537_1_alg».proof.Proof.Gen.KernelIdeal.Points
import proofs.«103716_j41532333752537_1_alg».proof.Proof.Gen.KernelIdeal.Frame
import proofs.«103716_j41532333752537_1_alg».proof.Proof.Gen.ReferenceIdeal
import proofs.«103716_j41532333752537_1_alg».proof.Proof.Gen.ReferenceIdeal.Run
import proofs.«103716_j41532333752537_1_alg».proof.Proof.Gen.ReferenceIdeal.Read
import proofs.«103716_j41532333752537_1_alg».proof.Proof.Gen.Pre_finite_inputs
import proofs.«103716_j41532333752537_1_alg».proof.Proof.KRun
import proofs.«103716_j41532333752537_1_alg».proof.Proof.Chain3
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the reference's last stage of those
    arguments in their result buffers. -/
theorem algebraic : Cert.algebraic_KernelIdeal_ReferenceIdeal := by
  intro m ρ m' ρ' _ hagree
  refine ⟨fun c => Cert.ReferenceIdeal.Read.val_main_v126 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Chain.w12_v101 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v126_eq]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
